-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x28x28 : Shape := ⟨4, ![8, 512, 28, 28]⟩
abbrev S6272x512 : Shape := ⟨2, ![6272, 512]⟩
abbrev S_ : Shape := ⟨0, ![]⟩

class Facts : Prop where
  bcast_S_S8x512x28x28 : S_.BroadcastsInDim S8x512x28x28 (![] : Fin 0 → Fin S8x512x28x28.rank)
  reducesTo_S8x512x28x28_S_d0_1_2_3 : S8x512x28x28.ReducesTo [0, 1, 2, 3] S_
  h_S_ : 0 < S_.numel
  bcast_S_S6272x512 : S_.BroadcastsInDim S6272x512 (![] : Fin 0 → Fin S6272x512.rank)
  reducesTo_S6272x512_S_d0_1 : S6272x512.ReducesTo [0, 1] S_

variable [Facts]

def fn {F : FTy → Type} [FloatOps F] (main_arg0 : FVec F S8x512x28x28 .f32) (main_arg1 : FVec F S6272x512 .f32) (main_arg2 : FVec F S6272x512 .f32) : IVec S_ 1 :=
  let main_v0 : FVec F S8x512x28x28 .f32 := Host.absf main_arg0
  let main_cst : FVec F S_ .f32 := constant S_ .f32 0x7F800000#32
  let main_v1 : FVec F S8x512x28x28 .f32 := broadcastInDim S8x512x28x28 ![] bcast_S_S8x512x28x28 main_cst
  let main_v2 : IVec S8x512x28x28 1 := cmpf .olt main_v0 main_v1
  let main_c : IVec S_ 1 := constantI S_ 1 1#1
  let main_v3 : IVec S_ 1 := (fun x v => Host.reduce IntOp.andi x v reducesTo_S8x512x28x28_S_d0_1_2_3 h_S_) main_v2 main_c
  let main_v4 : FVec F S6272x512 .f32 := Host.absf main_arg1
  let main_cst_0 : FVec F S_ .f32 := constant S_ .f32 0x7F800000#32
  let main_v5 : FVec F S6272x512 .f32 := broadcastInDim S6272x512 ![] bcast_S_S6272x512 main_cst_0
  let main_v6 : IVec S6272x512 1 := cmpf .olt main_v4 main_v5
  let main_c_1 : IVec S_ 1 := constantI S_ 1 1#1
  let main_v7 : IVec S_ 1 := (fun x v => Host.reduce IntOp.andi x v reducesTo_S6272x512_S_d0_1 h_S_) main_v6 main_c_1
  let main_v8 : IVec S_ 1 := andi main_v3 main_v7
  let main_v9 : FVec F S6272x512 .f32 := Host.absf main_arg2
  let main_cst_2 : FVec F S_ .f32 := constant S_ .f32 0x7F800000#32
  let main_v10 : FVec F S6272x512 .f32 := broadcastInDim S6272x512 ![] bcast_S_S6272x512 main_cst_2
  let main_v11 : IVec S6272x512 1 := cmpf .olt main_v9 main_v10
  let main_c_3 : IVec S_ 1 := constantI S_ 1 1#1
  let main_v12 : IVec S_ 1 := (fun x v => Host.reduce IntOp.andi x v reducesTo_S6272x512_S_d0_1 h_S_) main_v11 main_c_3
  let main_v13 : IVec S_ 1 := andi main_v8 main_v12
  main_v13
-- ==== Kernel.lean ====
abbrev S8x512x28x28 : Shape := ⟨4, ![8, 512, 28, 28]⟩
abbrev S6272x512 : Shape := ⟨2, ![6272, 512]⟩
abbrev S8x28x28x512 : Shape := ⟨4, ![8, 28, 28, 512]⟩
abbrev S2x1x512 : Shape := ⟨3, ![2, 1, 512]⟩
abbrev S784x512 : Shape := ⟨2, ![784, 512]⟩
abbrev S1x1x512 : Shape := ⟨3, ![1, 1, 512]⟩
abbrev S512 : Shape := ⟨1, ![512]⟩
abbrev S1x512 : Shape := ⟨2, ![1, 512]⟩
abbrev S_ : Shape := ⟨0, ![]⟩
abbrev S2x1x1 : Shape := ⟨3, ![2, 1, 1]⟩
abbrev S1x1x1 : Shape := ⟨3, ![1, 1, 1]⟩
abbrev S784 : Shape := ⟨1, ![784]⟩
abbrev S784x1 : Shape := ⟨2, ![784, 1]⟩
abbrev S1 : Shape := ⟨1, ![1]⟩
abbrev S1x1 : Shape := ⟨2, ![1, 1]⟩

abbrev nBuf : Space → Nat
  | .hbm => 22
  | .vmem => 16
  | .smem => 0
  | _ => 0

abbrev bufTy : (tb : Table) → Fin (tcTables nBuf tb) → BufTy
  | .hbm, ⟨0, _⟩ => ⟨S8x512x28x28, .f32⟩
  | .hbm, ⟨1, _⟩ => ⟨S6272x512, .f32⟩
  | .hbm, ⟨2, _⟩ => ⟨S6272x512, .f32⟩
  | .hbm, ⟨3, _⟩ => ⟨S8x28x28x512, .f32⟩
  | .hbm, ⟨4, _⟩ => ⟨S6272x512, .f32⟩
  | .hbm, ⟨5, _⟩ => ⟨S2x1x512, .f32⟩
  | .hbm, ⟨6, _⟩ => ⟨S2x1x512, .f32⟩
  | .hbm, ⟨7, _⟩ => ⟨S_, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S_, .f32⟩
  | .hbm, ⟨15, _⟩ => ⟨S1x512, .f32⟩
  | .hbm, ⟨16, _⟩ => ⟨S1x512, .f32⟩
  | .hbm, ⟨17, _⟩ => ⟨S2x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S784x512, .f32⟩
  | .local _ .vmem, ⟨1, _⟩ => ⟨S784x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S784x512, .f32⟩
  | .local _ .vmem, ⟨7, _⟩ => ⟨S784x512, .f32⟩
  | .local _ .vmem, ⟨8, _⟩ => ⟨S784x512, .f32⟩
  | .local _ .vmem, ⟨9, _⟩ => ⟨S784x512, .f32⟩
  | .local _ .vmem, ⟨10, _⟩ => ⟨S784x512, .f32⟩
  | .local _ .vmem, ⟨11, _⟩ => ⟨S784x512, .f32⟩
  | .local _ .vmem, ⟨12, _⟩ => ⟨S1x512, .f32⟩
  | .local _ .vmem, ⟨13, _⟩ => ⟨S1x512, .f32⟩
  | .local _ .vmem, ⟨14, _⟩ => ⟨S1x1x1, .f32⟩
  | .local _ .vmem, ⟨15, _⟩ => ⟨S1x1x1, .f32⟩
  | _, _ => ⟨S8x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S784x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S784x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S784x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S784x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S8x512x28x28_S8x28x28x512_0_2_3_1 : S8x512x28x28.Transposes [0, 2, 3, 1] S8x28x28x512
  shapeCasts_S8x28x28x512_S6272x512 : S8x28x28x512.ShapeCasts S6272x512
  inb_S1x1x512_S1x1x512_0_0_0 : ∀ a, (![0, 0, 0] : Fin 3 → Nat) a + S1x1x512.size a ≤ S1x1x512.size a
  h_S1x1x512 : 0 < S1x1x512.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  reduces_S784x512_S512 : S784x512.Reduces [0] S512
  shapeCasts_S512_S1x512 : S512.ShapeCasts S1x512
  shapeCasts_S1x1x512_S1x1x512 : S1x1x512.ShapeCasts S1x1x512
  shapeCasts_S1x512_S1x1x512 : S1x512.ShapeCasts S1x1x512
  reducesTo_S2x1x512_S1x512_d0 : S2x1x512.ReducesTo [0] S1x512
  h_S_ : 0 < S_.numel
  bcast_S_S1x512 : S_.BroadcastsInDim S1x512 (![] : Fin 0 → Fin S1x512.rank)
  inb_S1x1x1_S1x1x1_0_0_0 : ∀ a, (![0, 0, 0] : Fin 3 → Nat) a + S1x1x1.size a ≤ S1x1x1.size a
  h_S1x1x1 : 0 < S1x1x1.numel
  reduces_S784x512_S784 : S784x512.Reduces [1] S784
  shapeCasts_S784_S784x1 : S784.ShapeCasts S784x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S784x512 : S1x512.Broadcasts S784x512
  reduces_S784x1_S1 : S784x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x512.size a ≤ S6272x512.size a
  hwx0_0 : ∀ i : grid0.Coords, EltTy.bits .f32 = 32 ∨ (Rect.block (s := S6272x512) S784x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .f32 = 32 ∨ (Rect.block (s := S2x1x512) S1x1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S784x512.size a ≤ S6272x512.size a
  hwx1_0 : ∀ i : grid1.Coords, EltTy.bits .f32 = 32 ∨ (Rect.block (s := S6272x512) S784x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S784x512.size a ≤ S6272x512.size a
  hwx1_1 : ∀ i : grid1.Coords, EltTy.bits .f32 = 32 ∨ (Rect.block (s := S6272x512) S784x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S784x512.size a ≤ S6272x512.size a
  hwx1_2 : ∀ i : grid1.Coords, EltTy.bits .f32 = 32 ∨ (Rect.block (s := S6272x512) S784x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S2x1x1.size a
  hwx1_5 : ∀ i : grid1.Coords, EltTy.bits .f32 = 32 ∨ (Rect.block (s := S2x1x1) S1x1x1.size (cc1_transform_5 i) (hinb1_5 i)).WholeWords (EltTy.packing .f32)

variable [Facts₀]

abbrev win0_0 : Pipeline.Window sig grid0 :=
  Pipeline.Window.ofSpec (Memref.whole main_v1) S784x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S784x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S784x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S784x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x512x28x28 : Shape := ⟨4, ![8, 512, 28, 28]⟩
abbrev S6272x512 : Shape := ⟨2, ![6272, 512]⟩
abbrev S8x28x28x512 : Shape := ⟨4, ![8, 28, 28, 512]⟩
abbrev S_ : Shape := ⟨0, ![]⟩
abbrev S6272 : Shape := ⟨1, ![6272]⟩
abbrev S6272x6272 : Shape := ⟨2, ![6272, 6272]⟩
abbrev S6272x1 : Shape := ⟨2, ![6272, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x512x28x28, .f32⟩
  | .hbm, ⟨1, _⟩ => ⟨S6272x512, .f32⟩
  | .hbm, ⟨2, _⟩ => ⟨S6272x512, .f32⟩
  | .hbm, ⟨3, _⟩ => ⟨S8x28x28x512, .f32⟩
  | .hbm, ⟨4, _⟩ => ⟨S6272x512, .f32⟩
  | .hbm, ⟨5, _⟩ => ⟨S6272x512, .f32⟩
  | .hbm, ⟨6, _⟩ => ⟨S6272x512, .f32⟩
  | .hbm, ⟨7, _⟩ => ⟨S6272x512, .f32⟩
  | .hbm, ⟨8, _⟩ => ⟨S6272x512, .f32⟩
  | .hbm, ⟨9, _⟩ => ⟨S6272x512, .f32⟩
  | .hbm, ⟨10, _⟩ => ⟨S_, .f32⟩
  | .hbm, ⟨11, _⟩ => ⟨S6272, .f32⟩
  | .hbm, ⟨12, _⟩ => ⟨S_, .f32⟩
  | .hbm, ⟨13, _⟩ => ⟨S6272, .f32⟩
  | .hbm, ⟨14, _⟩ => ⟨S6272, .f32⟩
  | .hbm, ⟨15, _⟩ => ⟨S6272x512, .f32⟩
  | .hbm, ⟨16, _⟩ => ⟨S6272x6272, .f32⟩
  | .hbm, ⟨17, _⟩ => ⟨S6272x512, .f32⟩
  | .hbm, ⟨18, _⟩ => ⟨S6272x6272, .f32⟩
  | .hbm, ⟨19, _⟩ => ⟨S6272x512, .f32⟩
  | .hbm, ⟨20, _⟩ => ⟨S6272x512, .f32⟩
  | .hbm, ⟨21, _⟩ => ⟨S_, .f32⟩
  | .hbm, ⟨22, _⟩ => ⟨S6272, .f32⟩
  | .hbm, ⟨23, _⟩ => ⟨S6272x1, .f32⟩
  | .hbm, ⟨24, _⟩ => ⟨S_, .f32⟩
  | .hbm, ⟨25, _⟩ => ⟨S6272x6272, .f32⟩
  | .hbm, ⟨26, _⟩ => ⟨S6272x6272, .f32⟩
  | .hbm, ⟨27, _⟩ => ⟨S6272x6272, .f32⟩
  | .hbm, ⟨28, _⟩ => ⟨S6272x6272, .f32⟩
  | .hbm, ⟨29, _⟩ => ⟨S6272x6272, .f32⟩
  | .hbm, ⟨30, _⟩ => ⟨S_, .f32⟩
  | .hbm, ⟨31, _⟩ => ⟨S6272, .f32⟩
  | .hbm, ⟨32, _⟩ => ⟨S_, .f32⟩
  | .hbm, ⟨33, _⟩ => ⟨S6272, .f32⟩
  | .hbm, ⟨34, _⟩ => ⟨S6272, .f32⟩
  | .hbm, ⟨35, _⟩ => ⟨S_, .f32⟩
  | .hbm, ⟨36, _⟩ => ⟨S6272, .f32⟩
  | .hbm, ⟨37, _⟩ => ⟨S6272, .f32⟩
  | .hbm, ⟨38, _⟩ => ⟨S6272, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S8x512x28x28_S8x28x28x512_0_2_3_1 : S8x512x28x28.Transposes [0, 2, 3, 1] S8x28x28x512
  shapeCasts_S8x28x28x512_S6272x512 : S8x28x28x512.ShapeCasts S6272x512
  reducesTo_S6272x512_S6272_d1 : S6272x512.ReducesTo [1] S6272
  h_S_ : 0 < S_.numel
  bcast_S_S6272 : S_.BroadcastsInDim S6272 (![] : Fin 0 → Fin S6272.rank)
  bcast_S6272_S6272x1_0 : S6272.BroadcastsInDim S6272x1 (![0] : Fin 1 → Fin S6272x1.rank)
  bcast_S_S6272x6272 : S_.BroadcastsInDim S6272x6272 (![] : Fin 0 → Fin S6272x6272.rank)
  bcast_S6272x1_S6272x6272_0_1 : S6272x1.BroadcastsInDim S6272x6272 (![0, 1] : Fin 2 → Fin S6272x6272.rank)
  reducesTo_S6272x6272_S6272_d1 : S6272x6272.ReducesTo [1] S6272
  reducesTo_S6272_S_d0 : S6272.ReducesTo [0] S_
  dot_S6272x512_S6272x512_S6272x6272_1_1_0_0_n_n_wf : DotDims.WF S6272x512 S6272x512 S6272x6272 [1] [1] [0] [0] [] []

variable [Facts₀]

def dot_S6272x512_S6272x512_S6272x6272_1_1_0_0_n_n : DotDims S6272x512 S6272x512 S6272x6272 where
  lhsContracting := [1]
  rhsContracting := [1]
  lhsNonContracting := [0]
  rhsNonContracting := [0]
  lhsBatch := []
  rhsBatch := []
  wf := dot_S6272x512_S6272x512_S6272x6272_1_1_0_0_n_n_wf

class Facts : Prop extends Facts₀ where

variable [Facts]
-- ==== Proof.LibBlockSum.lean ====
/-
  Sums over a range cut into equal blocks, and sums of real numbers among the extended reals.

  A sum over `Fin (A * B)` is the double sum over a block number `a < A` and a position `b < B` inside the block,
  the entry read at `a * B + b`; two such cuts give the three-level form used for rows grouped first by core, then
  by grid step, then by row inside the step's block. The coercion of the reals into the extended reals commutes
  with finite sums, so a sum of 1s and 0s chosen by a predicate is the number of indices where it holds.
-/
import Mathlib.Algebra.BigOperators.Fin
import Mathlib.Algebra.BigOperators.Ring.Finset
import Mathlib.Data.EReal.Basic
import Mathlib.Logic.Equiv.Fin.Basic

namespace Cert.Lib.BlockSum

/-- Position `b` of block `a` lies inside the range. -/
theorem blk_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over blocks of the sums inside each block. -/
theorem sum_fin_blocks {M : Type*} [AddCommMonoid M] (A B : ℕ) (h : Fin (A * B) → M) :
    ∑ x, h x = ∑ a : Fin A, ∑ b : Fin B, h ⟨a.val * B + b.val, blk_lt a b⟩ := by
  rw [← Equiv.sum_comp finProdFinEquiv h, Fintype.sum_prod_type]
  refine Finset.sum_congr rfl fun a _ => Finset.sum_congr rfl fun b _ => congrArg h (Fin.ext ?_)
  show b.val + B * a.val = a.val * B + b.val
  rw [Nat.mul_comm, Nat.add_comm]

/-- The same for a range whose length is given as a number equal to `A * B`. -/
theorem sum_fin_blocks_of_eq {M : Type*} [AddCommMonoid M] {n : ℕ} (A B : ℕ) (hn : A * B = n) (h : Fin n → M) :
    ∑ x, h x = ∑ a : Fin A, ∑ b : Fin B, h ⟨a.val * B + b.val, hn ▸ blk_lt a b⟩ := by
  subst hn
  exact sum_fin_blocks A B h

/-- Row `r` of step `j` of core `p` lies inside the range. -/
theorem row_lt {P J R n : ℕ} (hn : P * J * R = n) (p : Fin P) (j : Fin J) (r : Fin R) :
    (p.val * J + j.val) * R + r.val < n :=
  hn ▸ blk_lt (⟨p.val * J + j.val, blk_lt p j⟩ : Fin (P * J)) r

/-- A sum over `P * J * R` rows, grouped by core `p`, step `j` and row `r` inside the step's block. -/
theorem sum_rows {M : Type*} [AddCommMonoid M] {n : ℕ} (P J R : ℕ) (hn : P * J * R = n) (g : Fin n → M) :
    ∑ x, g x = ∑ p : Fin P, ∑ j : Fin J, ∑ r : Fin R, g ⟨(p.val * J + j.val) * R + r.val, row_lt hn p j r⟩ := by
  rw [sum_fin_blocks_of_eq (P * J) R hn g,
    sum_fin_blocks P J fun t => ∑ r : Fin R, g ⟨t.val * R + r.val, hn ▸ blk_lt t r⟩]

/-- The coercion of the reals into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of 1s (where `p` holds) and 0s (where it does not), among the extended reals, is the number of indices
    where `p` holds. -/
theorem sum_indicator {ι : Type*} [Fintype ι] (p : ι → Prop) [DecidablePred p] :
    ∑ i, (((if p i then 1 else 0 : ℝ)) : EReal) = (((Finset.univ.filter p).card : ℝ) : EReal) := by
  rw [← coe_sum, Finset.sum_boole]

end Cert.Lib.BlockSum
-- ==== Proof.ClubSpec.lean ====
/-
  The quantity both programs compute, written once over plain index types.

  For matrices X, M, L of 6272 rows and 512 columns (the samples, the predicted means, the predicted log-variances)
  put e = exp(-L) entrywise. Row i's "positive" term is -1/2 * sum_d (X - M)^2 * e at (i, d). Its "negative" term is
  -1/2 times the average over ALL rows j of  D(i, j) = sum_d e(i,d) X(j,d)^2 - 2 sum_d (M e)(i,d) X(j,d) + sum_d M(i,d)^2 e(i,d).
  The result is the average over the rows i of positive - negative.

  One side forms every D(i, j) and averages over j (`refE`). The other side first averages the columns of X and of
  X^2 over all rows, the rows taken in 2 groups of 4 blocks of 784, and contracts each row against the two averaged
  vectors (`kerE`). The three float literals are kept as their bit patterns.
-/
import Idealize.ShloMosaic.PureOps.Ideal
import proofs.«163307_j17454747091666_1_alg».proof.Proof.LibBlockSum

noncomputable section

namespace Cert.Club

open Idealize.ShloMosaic

/-- The literal -0.5. -/
abbrev cH : EReal := Ideal.ofBits .f32 0xBF000000#32
/-- The literal 2.0. -/
abbrev c2 : EReal := Ideal.ofBits .f32 0x40000000#32
/-- The literal 6272.0, the number of rows. -/
abbrev cN : EReal := Ideal.ofBits .f32 0x45C40000#32

/-- A matrix of 6272 rows and 512 columns of extended reals. -/
abbrev Mat : Type := Fin 6272 → Fin 512 → EReal

/-- e = exp(-L), entrywise. -/
def ev (L : Mat) (i : Fin 6272) (d : Fin 512) : EReal := Ideal.exp (-(L i d))

/-- Row i's positive term: -1/2 * sum_d (X - M)^2 e. -/
def pos (X M L : Mat) (i : Fin 6272) : EReal :=
  cH * ∑ d : Fin 512, ((X i d - M i d) * (X i d - M i d)) * ev L i d

/-- sum_d M^2 e of row i. -/
def tm2 (M L : Mat) (i : Fin 6272) : EReal := ∑ d : Fin 512, (M i d * M i d) * ev L i d

/-- sum_d e(i,d) X(j,d)^2. -/
def tx2 (X L : Mat) (i j : Fin 6272) : EReal := ∑ d : Fin 512, ev L i d * (X j d * X j d)

/-- sum_d (M e)(i,d) X(j,d). -/
def tcr (X M L : Mat) (i j : Fin 6272) : EReal := ∑ d : Fin 512, (M i d * ev L i d) * X j d

/-- Row i's negative term, every D(i, j) formed and averaged over j. -/
def negR (X M L : Mat) (i : Fin 6272) : EReal :=
  cH * Ideal.div (∑ j : Fin 6272, ((tx2 X L i j - c2 * tcr X M L i j) + tm2 M L i)) cN

/-- The result, pairwise form. -/
def refE (X M L : Mat) : EReal := Ideal.div (∑ i : Fin 6272, (pos X M L i - negR X M L i)) cN

/-- Row r of block t of group p. -/
def row (p : Fin 2) (t : Fin 4) (r : Fin 784) : Fin 6272 :=
  ⟨(p.val * 4 + t.val) * 784 + r.val, Cert.Lib.BlockSum.row_lt (by norm_num) p t r⟩

/-- Column d of Y summed over all rows, group by group, block by block. -/
def colSum (Y : Mat) (d : Fin 512) : EReal := ∑ p : Fin 2, ∑ t : Fin 4, ∑ r : Fin 784, Y (row p t r) d

/-- The column averages of X. -/
def xm (X : Mat) (d : Fin 512) : EReal := Ideal.div (colSum X d) cN

/-- The column averages of X^2. -/
def x2m (X : Mat) (d : Fin 512) : EReal := Ideal.div (colSum (fun i d => X i d * X i d) d) cN

/-- Row i's negative term, contracted against the two averaged vectors. -/
def negK (X M L : Mat) (i : Fin 6272) : EReal :=
  cH * (((∑ d : Fin 512, ev L i d * x2m X d) - c2 * ∑ d : Fin 512, (M i d * ev L i d) * xm X d) + tm2 M L i)

/-- The result, averaged-vector form, the rows summed group by group and block by block. -/
def kerE (X M L : Mat) : EReal :=
  Ideal.div (∑ p : Fin 2, ∑ t : Fin 4, ∑ r : Fin 784, (pos X M L (row p t r) - negK X M L (row p t r))) cN

end Cert.Club

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.RefRead.lean ====
/-
  The reference program's result is the specification's pairwise form.

  The reference transposes the samples to (8,28,28,512), flattens them to a matrix X of 6272 rows and 512 columns, and
  with M the predicted means, L the predicted log-variances and e = exp(-L) forms, row by row, the positive term
  -1/2 * sum_d (X - M)^2 e and the negative term -1/2 * (1/N) sum_j D(i, j), every D(i, j) = sum_d e(i,d) X(j,d)^2
  - 2 sum_d (M e)(i,d) X(j,d) + sum_d M(i,d)^2 e(i,d) computed as an entry of a 6272 x 6272 array; the result is the
  average over the rows of positive - negative. Each stage is read at a symbolic index: an elementwise stage is its
  operation on the operands at that index, a sum along an axis is the zero pattern plus the finite sum over that axis,
  a contraction is the finite sum of products, a broadcast reads its operand at the kept coordinates. No stage is
  ever evaluated as an array.
-/
import proofs.«163307_j17454747091666_1_alg».proof.Proof.Gen.ReferenceIdeal.Read
import proofs.«163307_j17454747091666_1_alg».proof.Proof.ClubSpec
import proofs.«163307_j17454747091666_1_alg».proof.Proof.LibFinite
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- The flattened samples: the transpose to (8,28,28,512) reshaped to (6272,512). -/
def flat (a0 : FVec Ideal S8x512x28x28 .f32) : FVec Ideal S6272x512 .f32 :=
  shapeCast S6272x512 (transpose S8x28x28x512 [0, 2, 3, 1] a0 transposes_S8x512x28x28_S8x28x28x512_0_2_3_1) shapeCasts_S8x28x28x512_S6272x512

/-- An array of shape (6272,512) as a matrix. -/
def mat (A : FVec Ideal S6272x512 .f32) : Cert.Club.Mat := fun i d => A (ValueIdx.ix2 i d)

/-! ## A sum over the rank-1 indices is the sum over the coordinate -/

/-- A rank-1 index is its one coordinate. -/
def idxEquiv1 {n : Nat} : (⟨1, ![n]⟩ : Shape).Idx ≃ Fin n where
  toFun j := j 0
  invFun := ValueIdx.ix1
  left_inv j := (ValueIdx.eq_ix1 j).symm
  right_inv _ := rfl

/-- A sum over the rank-1 indices of a function of the coordinate is the sum over the coordinate. -/
theorem sum_idx1 {M : Type*} [AddCommMonoid M] {n : Nat} (g : Fin n → M) :
    ∑ j : (⟨1, ![n]⟩ : Shape).Idx, g (j 0) = ∑ i : Fin n, g i :=
  Equiv.sum_comp (idxEquiv1 (n := n)) g

/-! ## The index maps of the stages, by coordinates -/

theorem idx7 (j : S6272.Idx) (k : Fin 512) : idx_main_v7 j k = ValueIdx.ix2 (n0 := 6272) (n1 := 512) (j 0) k :=
  funext fun a => Fin.ext (by match a with | ⟨0, _⟩ => rfl | ⟨1, _⟩ => rfl)
theorem idx16 (j : S6272.Idx) (k : Fin 512) : idx_main_v16 j k = ValueIdx.ix2 (n0 := 6272) (n1 := 512) (j 0) k :=
  funext fun a => Fin.ext (by match a with | ⟨0, _⟩ => rfl | ⟨1, _⟩ => rfl)
theorem idx23 (j : S6272.Idx) (k : Fin 6272) : idx_main_v23 j k = ValueIdx.ix2 (n0 := 6272) (n1 := 6272) (j 0) k :=
  funext fun a => Fin.ext (by match a with | ⟨0, _⟩ => rfl | ⟨1, _⟩ => rfl)
theorem lidx11 (i : S6272x6272.Idx) (k : Fin 512) : lidx_main_v11 i k = ValueIdx.ix2 (n0 := 6272) (n1 := 512) (i 0) k :=
  funext fun a => Fin.ext (by match a with | ⟨0, _⟩ => rfl | ⟨1, _⟩ => rfl)
theorem ridx11 (i : S6272x6272.Idx) (k : Fin 512) : ridx_main_v11 i k = ValueIdx.ix2 (n0 := 6272) (n1 := 512) (i 1) k :=
  funext fun a => Fin.ext (by match a with | ⟨0, _⟩ => rfl | ⟨1, _⟩ => rfl)
theorem lidx13 (i : S6272x6272.Idx) (k : Fin 512) : lidx_main_v13 i k = ValueIdx.ix2 (n0 := 6272) (n1 := 512) (i 0) k :=
  funext fun a => Fin.ext (by match a with | ⟨0, _⟩ => rfl | ⟨1, _⟩ => rfl)
theorem ridx13 (i : S6272x6272.Idx) (k : Fin 512) : ridx_main_v13 i k = ValueIdx.ix2 (n0 := 6272) (n1 := 512) (i 1) k :=
  funext fun a => Fin.ext (by match a with | ⟨0, _⟩ => rfl | ⟨1, _⟩ => rfl)
theorem idx1721 (i : S6272x6272.Idx) : idx_main_v17 (idx_main_v21 i) = ValueIdx.ix1 (n := 6272) (i 0) :=
  funext fun a => Fin.ext (by match a with | ⟨0, _⟩ => rfl)

/-! ## The stages at an index -/

section Stages
variable (a0 : FVec Ideal S8x512x28x28 .f32) (a1 a2 : FVec Ideal S6272x512 .f32)

/-- The sum's initial value, the pattern of +0.0, is 0. -/
theorem cst_zero : (val_main_cst (F := Ideal)) (Shape.Idx.first h_S_) = (0 : EReal) := Cert.LibFinite.ofBits_zero
theorem cst1_zero : (val_main_cst_1 (F := Ideal)) (Shape.Idx.first h_S_) = (0 : EReal) := Cert.LibFinite.ofBits_zero
theorem cst3_zero : (val_main_cst_3 (F := Ideal)) (Shape.Idx.first h_S_) = (0 : EReal) := Cert.LibFinite.ofBits_zero
theorem cst6_zero : (val_main_cst_6 (F := Ideal)) (Shape.Idx.first h_S_) = (0 : EReal) := Cert.LibFinite.ofBits_zero

/-- The flattened samples are the reshape stage. -/
theorem v1_eq : val_main_v1 (F := Ideal) a0 = flat a0 := rfl

/-- e = exp(-L) at (i, d). -/
theorem v3_at (i : Fin 6272) (d : Fin 512) :
    val_main_v3 (F := Ideal) a2 (ValueIdx.ix2 i d) = Cert.Club.ev (mat a2) i d := rfl

/-- (X - M)^2 e at (i, d). -/
theorem v6_at (i : Fin 6272) (d : Fin 512) :
    val_main_v6 (F := Ideal) a0 a1 a2 (ValueIdx.ix2 i d)
      = ((mat (flat a0) i d - mat a1 i d) * (mat (flat a0) i d - mat a1 i d)) * Cert.Club.ev (mat a2) i d := rfl

/-- sum_d (X - M)^2 e of row j. -/
theorem v7_at (j : S6272.Idx) :
    val_main_v7 (F := Ideal) a0 a1 a2 j
      = ∑ d : Fin 512, ((mat (flat a0) (j 0) d - mat a1 (j 0) d) * (mat (flat a0) (j 0) d - mat a1 (j 0) d)) * Cert.Club.ev (mat a2) (j 0) d := by
  rw [val_main_v7_apply, cst_zero, zero_add]
  refine Finset.sum_congr rfl fun d _ => ?_
  rw [idx7]
  exact v6_at a0 a1 a2 (j 0) d

/-- The positive term of row j. -/
theorem v9_at (j : S6272.Idx) :
    val_main_v9 (F := Ideal) a0 a1 a2 j = Cert.Club.pos (mat (flat a0)) (mat a1) (mat a2) (j 0) := by
  rw [val_main_v9_apply, val_main_v8_apply, v7_at]
  rfl

/-- sum_d e(i,d) X(j,d)^2 at (i, j). -/
theorem v11_at (i : S6272x6272.Idx) :
    val_main_v11 (F := Ideal) a0 a2 i = Cert.Club.tx2 (mat (flat a0)) (mat a2) (i 0) (i 1) := by
  rw [val_main_v11_apply]
  refine Finset.sum_congr rfl fun d _ => ?_
  rw [lidx11, ridx11]
  rfl

/-- sum_d (M e)(i,d) X(j,d) at (i, j). -/
theorem v13_at (i : S6272x6272.Idx) :
    val_main_v13 (F := Ideal) a0 a1 a2 i = Cert.Club.tcr (mat (flat a0)) (mat a1) (mat a2) (i 0) (i 1) := by
  rw [val_main_v13_apply]
  refine Finset.sum_congr rfl fun d _ => ?_
  rw [lidx13, ridx13]
  rfl

/-- sum_d M^2 e of row j. -/
theorem v16_at (j : S6272.Idx) :
    val_main_v16 (F := Ideal) a1 a2 j = Cert.Club.tm2 (mat a1) (mat a2) (j 0) := by
  rw [val_main_v16_apply, cst1_zero, zero_add]
  refine Finset.sum_congr rfl fun d _ => ?_
  rw [idx16]
  rfl

/-- The row term broadcast along the columns. -/
theorem v21_at (i : S6272x6272.Idx) :
    val_main_v21 (F := Ideal) a1 a2 i = Cert.Club.tm2 (mat a1) (mat a2) (i 0) := by
  rw [val_main_v21_apply, val_main_v17_apply, idx1721, v16_at]

/-- D(i, j). -/
theorem v22_at (i : S6272x6272.Idx) :
    val_main_v22 (F := Ideal) a0 a1 a2 i
      = (Cert.Club.tx2 (mat (flat a0)) (mat a2) (i 0) (i 1) - Cert.Club.c2 * Cert.Club.tcr (mat (flat a0)) (mat a1) (mat a2) (i 0) (i 1))
        + Cert.Club.tm2 (mat a1) (mat a2) (i 0) := by
  rw [val_main_v22_apply, val_main_v20_apply, val_main_v19_apply, val_main_v18_apply, v11_at, v13_at, v21_at]
  rfl

/-- sum_j D(i, j) of row i. -/
theorem v23_at (j : S6272.Idx) :
    val_main_v23 (F := Ideal) a0 a1 a2 j
      = ∑ k : Fin 6272, ((Cert.Club.tx2 (mat (flat a0)) (mat a2) (j 0) k - Cert.Club.c2 * Cert.Club.tcr (mat (flat a0)) (mat a1) (mat a2) (j 0) k)
          + Cert.Club.tm2 (mat a1) (mat a2) (j 0)) := by
  rw [val_main_v23_apply, cst3_zero, zero_add]
  refine Finset.sum_congr rfl fun k _ => ?_
  rw [idx23, v22_at]

/-- The negative term of row j. -/
theorem v27_at (j : S6272.Idx) :
    val_main_v27 (F := Ideal) a0 a1 a2 j = Cert.Club.negR (mat (flat a0)) (mat a1) (mat a2) (j 0) := by
  rw [val_main_v27_apply, val_main_v26_apply, val_main_v25_apply, val_main_v24_apply, v23_at]
  rfl

/-- positive - negative of row j. -/
theorem v28_at (j : S6272.Idx) :
    val_main_v28 (F := Ideal) a0 a1 a2 j
      = Cert.Club.pos (mat (flat a0)) (mat a1) (mat a2) (j 0) - Cert.Club.negR (mat (flat a0)) (mat a1) (mat a2) (j 0) := by
  rw [val_main_v28_apply, v9_at, v27_at]
  rfl

/-- The last stage is the pairwise form, at its one index. -/
theorem v30_at (i : S_.Idx) :
    val_main_v30 (F := Ideal) a0 a1 a2 i = Cert.Club.refE (mat (flat a0)) (mat a1) (mat a2) := by
  rw [val_main_v30_apply, val_main_v29_apply, cst6_zero, zero_add]
  have h : (∑ j : S6272.Idx, val_main_v28 (F := Ideal) a0 a1 a2 j)
      = ∑ r : Fin 6272, (Cert.Club.pos (mat (flat a0)) (mat a1) (mat a2) r - Cert.Club.negR (mat (flat a0)) (mat a1) (mat a2) r) :=
    (Finset.sum_congr rfl fun j _ => v28_at a0 a1 a2 j).trans
      (sum_idx1 (n := 6272) fun r : Fin 6272 => Cert.Club.pos (mat (flat a0)) (mat a1) (mat a2) r - Cert.Club.negR (mat (flat a0)) (mat a1) (mat a2) r)
  rw [h]
  rfl

/-- The composed term of the run is the constant array of the pairwise form. -/
theorem result_eq :
    Host.divf (Host.reduceAdd (subf (mulf (broadcastInDim S6272 ![] bcast_S_S6272 (constant S_ .f32 0xBF000000#32)) (Host.reduceAdd (mulf (mulf (subf (shapeCast _ (transpose S8x28x28x512 [0, 2, 3, 1] a0 transposes_S8x512x28x28_S8x28x28x512_0_2_3_1) shapeCasts_S8x28x28x512_S6272x512) a1) (subf (shapeCast _ (transpose S8x28x28x512 [0, 2, 3, 1] a0 transposes_S8x512x28x28_S8x28x28x512_0_2_3_1) shapeCasts_S8x28x28x512_S6272x512) a1)) (Host.exp (Host.negf a2))) (constant S_ .f32 0x00000000#32) reducesTo_S6272x512_S6272_d1 h_S_)) (mulf (broadcastInDim S6272 ![] bcast_S_S6272 (constant S_ .f32 0xBF000000#32)) (Host.divf (Host.reduceAdd (addf (subf (Host.dotGeneral dot_S6272x512_S6272x512_S6272x6272_1_1_0_0_n_n none (Host.exp (Host.negf a2)) (mulf (shapeCast _ (transpose S8x28x28x512 [0, 2, 3, 1] a0 transposes_S8x512x28x28_S8x28x28x512_0_2_3_1) shapeCasts_S8x28x28x512_S6272x512) (shapeCast _ (transpose S8x28x28x512 [0, 2, 3, 1] a0 transposes_S8x512x28x28_S8x28x28x512_0_2_3_1) shapeCasts_S8x28x28x512_S6272x512))) (mulf (broadcastInDim S6272x6272 ![] bcast_S_S6272x6272 (constant S_ .f32 0x40000000#32)) (Host.dotGeneral dot_S6272x512_S6272x512_S6272x6272_1_1_0_0_n_n none (mulf a1 (Host.exp (Host.negf a2))) (shapeCast _ (transpose S8x28x28x512 [0, 2, 3, 1] a0 transposes_S8x512x28x28_S8x28x28x512_0_2_3_1) shapeCasts_S8x28x28x512_S6272x512)))) (broadcastInDim S6272x6272 ![0, 1] bcast_S6272x1_S6272x6272_0_1 (broadcastInDim S6272x1 ![0] bcast_S6272_S6272x1_0 (Host.reduceAdd (mulf (mulf a1 a1) (Host.exp (Host.negf a2))) (constant S_ .f32 0x00000000#32) reducesTo_S6272x512_S6272_d1 h_S_)))) (constant S_ .f32 0x00000000#32) reducesTo_S6272x6272_S6272_d1 h_S_) (broadcastInDim S6272 ![] bcast_S_S6272 (constant S_ .f32 0x45C40000#32))))) (constant S_ .f32 0x00000000#32) reducesTo_S6272_S_d0 h_S_) (constant S_ .f32 0x45C40000#32)
      = fun _ => Cert.Club.refE (mat (flat a0)) (mat a1) (mat a2) :=
  (val_main_v30_eq (F := Ideal) a0 a1 a2).trans (funext fun i => v30_at a0 a1 a2 i)

end Stages

/-- On every device, from any memory with zero counters: every weakly fair execution of the reference terminates
    with its result the pairwise form of the flattened samples, the means and the log-variances, the arguments
    unchanged. -/
theorem run_refE (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = (fun _ => Cert.Club.refE (mat (flat (m ((c.tc : Thread nD τ).loc main_arg0)))) (mat (m ((c.tc : Thread nD τ).loc main_arg1))) (mat (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans (result_eq _ _ _), (h c).2⟩)
    (Cert.ReferenceIdeal.Value.run (F := Ideal) m ρ)

end Cert.ReferenceIdeal.RefValue

end
-- ==== Proof.KernelRun.lean ====
import proofs.«163307_j17454747091666_1_alg».proof.Proof.Gen.KernelIdeal.Frame

/-!
  The whole program's run with its result named.

  The program is five stretches: host operations, the first pass, host operations, the second pass, host operations.
  The buffer contents after each stretch are a fold from the launch memory; every weakly fair execution ends with every
  buffer that outlives the kernels at the last fold. Read at the result buffer this names the result; read at the three
  argument buffers it gives back the launch contents.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    fold's contents and the three arguments as launched. -/
theorem run_final : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Whole

end
-- ==== Proof.SumPieces.lean ====
import proofs.«163307_j17454747091666_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  The first pass: what one grid step leaves in the two running column sums.

  A step reads its block x of 784 rows. At the first step of a group the two accumulators are first set to zero;
  at every step the column sums of x are added to the first accumulator and the column sums of x*x to the second.
-/

namespace Cert.KernelIdeal.SumPass
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a group adds the block's column sums to the first accumulator. -/
theorem later_1 (c : Dev nD) (i : grid0.Coords) (a2 : Memref sig .tc .vmem S784x512 .f32) (h2 : a2.IsWhole)
    (a3 : Memref sig .tc .vmem S1x1x512 .f32) (h3 : a3.IsWhole) (a4 : Memref sig .tc .vmem S1x1x512 .f32) (h4 : a4.IsWhole)
    (hc : ¬cond0_0 i) (x : Vec F S784x512 .f32) (s1 s2 : Vec F S1x1x512 .f32) :
    out0_B_1 c i a2 h2 a3 h3 a4 h4 hc x s1 s2 = k0_pay4 x s1 := by
  unfold out0_B_1
  rw [View.read_writes_eq_canon _ _ _ (cover0_B_1 c i a2 h2 a3 h3 a4 h4 hc x s1 s2)]
  unfold kernelRun0_B
  dsimp only
  rw [View.canon_unit_zero hz3]
  simp only [View.readAt_eq_ld, h2.read_unread, h3.read_unread, View.ld_unit_zero (S := S784x512) hz2,
    View.ld_unit_zero (S := S1x1x512) hz3]

/-- A later step of a group adds the column sums of the block's squares to the second accumulator. -/
theorem later_2 (c : Dev nD) (i : grid0.Coords) (a2 : Memref sig .tc .vmem S784x512 .f32) (h2 : a2.IsWhole)
    (a3 : Memref sig .tc .vmem S1x1x512 .f32) (h3 : a3.IsWhole) (a4 : Memref sig .tc .vmem S1x1x512 .f32) (h4 : a4.IsWhole)
    (hc : ¬cond0_0 i) (x : Vec F S784x512 .f32) (s1 s2 : Vec F S1x1x512 .f32) :
    out0_B_2 c i a2 h2 a3 h3 a4 h4 hc x s1 s2 = k0_pay5 x s2 := by
  unfold out0_B_2
  rw [View.read_writes_eq_canon _ _ _ (cover0_B_2 c i a2 h2 a3 h3 a4 h4 hc x s1 s2)]
  unfold kernelRun0_B
  dsimp only
  rw [View.canon_unit_zero hz3]
  simp only [View.readAt_eq_ld, h2.read_unread, h4.read_unread, View.ld_unit_zero (S := S784x512) hz2,
    View.ld_unit_zero (S := S1x1x512) hz3]

/-- The first step of a group leaves zero plus the block's column sums in the first accumulator. -/
theorem first_1 (c : Dev nD) (i : grid0.Coords) (a2 : Memref sig .tc .vmem S784x512 .f32) (h2 : a2.IsWhole)
    (a3 : Memref sig .tc .vmem S1x1x512 .f32) (h3 : a3.IsWhole) (a4 : Memref sig .tc .vmem S1x1x512 .f32) (h4 : a4.IsWhole)
    (hc : cond0_0 i) (x : Vec F S784x512 .f32) :
    out0_A_1 c i a2 h2 a3 h3 a4 h4 hc x = k0_pay4 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x512) hz3, View.readCov_unit_zero (S := S1x1x512) _ hz3]
  simp only [View.readAt_eq_ld, h2.read_unread, View.ld_unit_zero (S := S784x512) hz2]

/-- The first step of a group leaves zero plus the column sums of the block's squares in the second accumulator. -/
theorem first_2 (c : Dev nD) (i : grid0.Coords) (a2 : Memref sig .tc .vmem S784x512 .f32) (h2 : a2.IsWhole)
    (a3 : Memref sig .tc .vmem S1x1x512 .f32) (h3 : a3.IsWhole) (a4 : Memref sig .tc .vmem S1x1x512 .f32) (h4 : a4.IsWhole)
    (hc : cond0_0 i) (x : Vec F S784x512 .f32) :
    out0_A_2 c i a2 h2 a3 h3 a4 h4 hc x = k0_pay5 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1x512) hz3, View.readCov_unit_zero (S := S1x1x512) _ hz3]
  simp only [View.readAt_eq_ld, h2.read_unread, View.ld_unit_zero (S := S784x512) hz2]

end Cert.KernelIdeal.SumPass
end
-- ==== Proof.SumRead.lean ====
/-
  The values the first pass stores, read at one index.

  Each step of the first pass reads a 784 x 512 block x and the two running row vectors, and stores
  s + (the block's column sums) and s' + (the column sums of the block's entrywise square); its first step stores
  zeros instead of reading. Read at column d: the stored value is s(d) + sum_r x(r, d), respectively
  s'(d) + sum_r x(r, d)^2. The casts between [512], [1, 512] and [1, 1, 512] only rename the index.
-/
import proofs.«163307_j17454747091666_1_alg».proof.Proof.Gen.KernelIdeal.Skeleton
import proofs.«163307_j17454747091666_1_alg».proof.Proof.LibFinite
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SumRead

open Cert.KernelIdeal Cert.KernelIdeal.Gen Idealize.ShloMosaic Idealize.ShloMosaic.ValueIdx

/-- The index of the 784 x 512 block that lies over column d with row r put on the summed axis is (r, d). -/
theorem lift_eq (h : S784x512.Reduces [0] S512) (d : Fin 512) (r : Fin 784) :
    h.lift (ix1 d) r = ix2 r d := by
  funext a; match a with | ⟨0, _⟩ => rfl | ⟨1, _⟩ => rfl

/-- The sum of a 784 x 512 block over its rows, read at column d, is the sum of the column's 784 entries. -/
theorem colred_apply (v : FVec Ideal S784x512 .f32) (h : S784x512.Reduces [0] S512) (hφ : FKind.Formats .f32)
    (hacc : (0x00000000#32 : BitVec 32) = FKind.add.neutral .f32 hφ) (d : Fin 512) :
    multiReduction .add [0] S512 v 0x00000000#32 h hφ hacc (ix1 d) = ∑ r : Fin 784, v (ix2 r d) := by
  refine (Ideal.multiReduction_add_single v 0x00000000#32 h hφ hacc (ix1 d)).trans ?_
  exact Finset.sum_congr rfl fun r _ => congrArg v (lift_eq h d r)

/-- The running column sums after a step: the old value plus the block's column sum. -/
theorem pay4_apply (x : Vec Ideal S784x512 .f32) (s : Vec Ideal S1x1x512 .f32) (d : Fin 512) :
    k0_pay4 (F := Ideal) x s (ix3 (0 : Fin 1) (0 : Fin 1) d)
      = s (ix3 (0 : Fin 1) (0 : Fin 1) d) + ∑ r : Fin 784, x (ix2 r d) := by
  unfold k0_pay4 k0_pay3
  refine congrArg₂ (· + ·) ?_ ?_
  · exact congrFun (shapeCast_self s _) _
  · refine (shapeCast_ab_1ab_apply _ _ 0 0 d).trans ?_
    refine (shapeCast_a_1a_apply _ _ 0 d).trans ?_
    refine (colred_apply _ _ _ _ d).trans ?_
    rw [shapeCast_self]

/-- The running column sums of squares after a step: the old value plus the column sum of the block's squares. -/
theorem pay5_apply (x : Vec Ideal S784x512 .f32) (s : Vec Ideal S1x1x512 .f32) (d : Fin 512) :
    k0_pay5 (F := Ideal) x s (ix3 (0 : Fin 1) (0 : Fin 1) d)
      = s (ix3 (0 : Fin 1) (0 : Fin 1) d) + ∑ r : Fin 784, x (ix2 r d) * x (ix2 r d) := by
  unfold k0_pay5 k0_pay3
  refine congrArg₂ (· + ·) ?_ ?_
  · exact congrFun (shapeCast_self s _) _
  · refine (shapeCast_ab_1ab_apply _ _ 0 0 d).trans ?_
    refine (shapeCast_a_1a_apply _ _ 0 d).trans ?_
    refine (colred_apply _ _ _ _ d).trans ?_
    rw [shapeCast_self]
    rfl

/-- The first step's initial column sums are zero. -/
theorem pay1_apply (i : S1x1x512.Idx) : k0_pay1 (F := Ideal) i = 0 := Cert.LibFinite.ofBits_zero

/-- The first step's initial column sums of squares are zero. -/
theorem pay2_apply (i : S1x1x512.Idx) : k0_pay2 (F := Ideal) i = 0 := Cert.LibFinite.ofBits_zero

/-- The second pass's initial total is zero. -/
theorem main_pay2_apply (i : S1x1x1.Idx) : k1_pay2 (F := Ideal) i = 0 := Cert.LibFinite.ofBits_zero

end Cert.KernelIdeal.SumRead

end
-- ==== Proof.SumValue.lean ====
import proofs.«163307_j17454747091666_1_alg».proof.Proof.Gen.KernelIdeal.Frame
import Idealize.ShloMosaic.Lib.Pipeline.Value
import Idealize.ShloMosaic.Lib.Tactic
import proofs.«163307_j17454747091666_1_alg».proof.Proof.SumPieces
import proofs.«163307_j17454747091666_1_alg».proof.Proof.SumRead
import proofs.«163307_j17454747091666_1_alg».proof.Proof.ClubSpec
import Idealize.ShloMosaic.Lib.ValueIdx

noncomputable section

open Idealize.ShloMosaic Idealize.ShloMosaic.TcCoe Idealize.SL.Sem
open Idealize.ShloMosaic.Pipeline (Dat)

/-!
  The first pass, read: after it, entry (p, 0, d) of its first result array is the sum of column d of the samples
  over the 4 blocks of 784 rows of group p, and of its second result array the same sum of the squares.

  The grid has 8 steps; step n = 4p + s reads rows 784 n … 784 n + 783. The accumulators are set to zero at the
  first step of a group, receive one block's column sums per step, and are written back after the group's last step.
-/

namespace Cert.KernelIdeal.SumPass
open Cert.KernelIdeal Cert.KernelIdeal.Gen Idealize.ShloMosaic.ValueIdx

variable (V : (c : Dev nD) → (b : Ref sig .tc) → Buf (Elt Ideal) ((c : Thread nD τ).loc b))

/-- The printed index maps over the grid: the input's block number is the step; an accumulator's block is the group. -/
theorem idx_facts : ∀ t : Fin cfg0.N, win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The flattened samples as the first pass finds them: an array of 6272 rows and 512 columns of extended reals. -/
def smp (c : Dev nD) : S6272x512.Idx → EReal := V c main_v1

/-- Step n's block of the samples: 784 rows and 512 columns. -/
def blk (c : Dev nD) (n : ℕ) (hn : n < cfg0.N) : S784x512.Idx → EReal := iblk0 V c 0 ⟨n, hn⟩

/-- Row r of step n's block is row 784 n + r of the samples. -/
theorem blk_row_lt (n : ℕ) (hn : n < cfg0.N) (r : Fin 784) : 784 * n + r.val < 6272 := by
  have hN : cfg0.N = 8 := N_0
  have := r.isLt
  omega

/-- Step n's input block, entry (r, d): the samples at (784 n + r, d). -/
theorem iblk_apply (c : Dev nD) (n : ℕ) (hn : n < cfg0.N) (r : Fin 784) (d : Fin 512) :
    blk V c n hn (ix2 r d) = smp V c (ix2 ⟨784 * n + r.val, blk_row_lt n hn r⟩ d) := by
  obtain ⟨e0, e1, -⟩ := idx_facts ⟨n, hn⟩
  have e0' : win0_0.index ⟨n, hn⟩ 0 = n := e0
  unfold blk smp iblk0
  rw [View.read_apply]
  show V c main_v1 _ = V c main_v1 _
  congr 1
  funext a
  apply Fin.ext
  match a with
  | ⟨0, _⟩ => show win0_0.index ⟨n, hn⟩ 0 * 784 + 1 * r.val = 784 * n + r.val; rw [e0']; omega
  | ⟨1, _⟩ => show win0_0.index ⟨n, hn⟩ 1 * 512 + 1 * d.val = d.val; rw [e1]; omega

/-- Column d of step n's block, summed (zero past the grid or the columns). -/
def colOf (c : Dev nD) (n d : ℕ) : EReal :=
  if h : n < cfg0.N ∧ d < 512 then ∑ r : Fin 784, smp V c (ix2 ⟨784 * n + r.val, blk_row_lt n h.1 r⟩ ⟨d, h.2⟩) else 0

/-- Column d of the squares of step n's block, summed (zero past the grid or the columns). -/
def sqOf (c : Dev nD) (n d : ℕ) : EReal :=
  if h : n < cfg0.N ∧ d < 512 then ∑ r : Fin 784, smp V c (ix2 ⟨784 * n + r.val, blk_row_lt n h.1 r⟩ ⟨d, h.2⟩) * smp V c (ix2 ⟨784 * n + r.val, blk_row_lt n h.1 r⟩ ⟨d, h.2⟩) else 0

theorem colOf_eq (c : Dev nD) (n : ℕ) (hn : n < cfg0.N) (d : Fin 512) :
    colOf V c n d.val = ∑ r : Fin 784, blk V c n hn (ix2 r d) := by
  unfold colOf
  rw [dif_pos ⟨hn, d.isLt⟩]
  exact Finset.sum_congr rfl fun r _ => (iblk_apply V c n hn r d).symm

theorem sqOf_eq (c : Dev nD) (n : ℕ) (hn : n < cfg0.N) (d : Fin 512) :
    sqOf V c n d.val = ∑ r : Fin 784, blk V c n hn (ix2 r d) * blk V c n hn (ix2 r d) := by
  unfold sqOf
  rw [dif_pos ⟨hn, d.isLt⟩]
  exact Finset.sum_congr rfl fun r _ => by rw [iblk_apply V c n hn r d]

/-- The first accumulator after step n, column d. -/
def acc1 (c : Dev nD) (n : ℕ) (h : n < cfg0.N) : Fin 512 → EReal :=
  fun d => (outsAt0 V c n h).1 (ix3 (0 : Fin 1) (0 : Fin 1) d)

/-- At the first step of a group the first accumulator is zero plus the step's column sums. -/
theorem acc1_first (c : Dev nD) (n : ℕ) (h : n < cfg0.N) (hm : n % 4 = 0) :
    acc1 V c n h = fun d => 0 + colOf V c n d.val := by
  funext d
  show (outsAt0 V c n h).1 (ix3 (0 : Fin 1) (0 : Fin 1) d) = _
  rw [outsAt0_A V c ⟨n, h⟩ hm]
  dsimp only
  rw [first_1]
  refine (SumRead.pay4_apply (blk V c n h) _ d).trans ?_
  rw [SumRead.pay1_apply, colOf_eq V c n h d]

/-- At a later step of a group the first accumulator is what the step before left plus the step's column sums. -/
theorem acc1_later (c : Dev nD) (n : ℕ) (h : n + 1 < cfg0.N) (hm : ¬(n + 1) % 4 = 0) :
    acc1 V c (n + 1) h = fun d => acc1 V c n (Nat.lt_of_succ_lt h) d + colOf V c (n + 1) d.val := by
  funext d
  show (outsAt0 V c (n + 1) h).1 (ix3 (0 : Fin 1) (0 : Fin 1) d) = (outsAt0 V c n (Nat.lt_of_succ_lt h)).1 (ix3 (0 : Fin 1) (0 : Fin 1) d) + _
  rw [outsAt0_B V c ⟨n + 1, h⟩ hm]
  dsimp only
  rw [later_1]
  refine (SumRead.pay4_apply (blk V c (n + 1) h) _ d).trans ?_
  rw [colOf_eq V c (n + 1) h d]
  rfl

/-- The first accumulator after step t: zero plus the column sums of the steps of t's group up to t. -/
theorem acc1_apply (c : Dev nD) (t : ℕ) (ht : t < cfg0.N) (d : Fin 512) :
    acc1 V c t ht d = 0 + ∑ s ∈ Finset.range (t % 4 + 1), colOf V c (4 * (t / 4) + s) d.val := by
  have h' : 4 * (t / 4) + t % 4 < cfg0.N := by rw [Nat.div_add_mod]; exact ht
  have key := Pipeline.eq_accAt_of_mod (N := cfg0.N) (α := Fin 512 → EReal) (acc1 V c) 4
    (fun n h d => 0 + colOf V c n d.val) (fun n h acc d => acc d + colOf V c n d.val)
    (fun n h hm => acc1_first V c n h hm) (fun n h hm => acc1_later V c n h hm)
    (by decide) t ht h'
  rw [congrFun key d]
  exact Pipeline.accAt_add_apply (N := cfg0.N) (ι := Fin 512) (β := EReal) _ _ (fun _ => 0) (fun n d => colOf V c n d.val)
    (4 * (t / 4)) 3 (fun h i => rfl) (fun n h acc i _ _ => rfl) (t % 4) (by omega) h' d

/-- The second accumulator after step n, column d. -/
def acc2 (c : Dev nD) (n : ℕ) (h : n < cfg0.N) : Fin 512 → EReal :=
  fun d => (outsAt0 V c n h).2 (ix3 (0 : Fin 1) (0 : Fin 1) d)

/-- At the first step of a group the second accumulator is zero plus the step's column sums. -/
theorem acc2_first (c : Dev nD) (n : ℕ) (h : n < cfg0.N) (hm : n % 4 = 0) :
    acc2 V c n h = fun d => 0 + sqOf V c n d.val := by
  funext d
  show (outsAt0 V c n h).2 (ix3 (0 : Fin 1) (0 : Fin 1) d) = _
  rw [outsAt0_A V c ⟨n, h⟩ hm]
  dsimp only
  rw [first_2]
  refine (SumRead.pay5_apply (blk V c n h) _ d).trans ?_
  rw [SumRead.pay2_apply, sqOf_eq V c n h d]

/-- At a later step of a group the second accumulator is what the step before left plus the step's column sums. -/
theorem acc2_later (c : Dev nD) (n : ℕ) (h : n + 1 < cfg0.N) (hm : ¬(n + 1) % 4 = 0) :
    acc2 V c (n + 1) h = fun d => acc2 V c n (Nat.lt_of_succ_lt h) d + sqOf V c (n + 1) d.val := by
  funext d
  show (outsAt0 V c (n + 1) h).2 (ix3 (0 : Fin 1) (0 : Fin 1) d) = (outsAt0 V c n (Nat.lt_of_succ_lt h)).2 (ix3 (0 : Fin 1) (0 : Fin 1) d) + _
  rw [outsAt0_B V c ⟨n + 1, h⟩ hm]
  dsimp only
  rw [later_2]
  refine (SumRead.pay5_apply (blk V c (n + 1) h) _ d).trans ?_
  rw [sqOf_eq V c (n + 1) h d]
  rfl

/-- The second accumulator after step t: zero plus the column sums of the steps of t's group up to t. -/
theorem acc2_apply (c : Dev nD) (t : ℕ) (ht : t < cfg0.N) (d : Fin 512) :
    acc2 V c t ht d = 0 + ∑ s ∈ Finset.range (t % 4 + 1), sqOf V c (4 * (t / 4) + s) d.val := by
  have h' : 4 * (t / 4) + t % 4 < cfg0.N := by rw [Nat.div_add_mod]; exact ht
  have key := Pipeline.eq_accAt_of_mod (N := cfg0.N) (α := Fin 512 → EReal) (acc2 V c) 4
    (fun n h d => 0 + sqOf V c n d.val) (fun n h acc d => acc d + sqOf V c n d.val)
    (fun n h hm => acc2_first V c n h hm) (fun n h hm => acc2_later V c n h hm)
    (by decide) t ht h'
  rw [congrFun key d]
  exact Pipeline.accAt_add_apply (N := cfg0.N) (ι := Fin 512) (β := EReal) _ _ (fun _ => 0) (fun n d => sqOf V c n d.val)
    (4 * (t / 4)) 3 (fun h i => rfl) (fun n h acc i _ _ => rfl) (t % 4) (by omega) h' d

/-- What the first result array ends holding: at (p, ·, d) the four column sums of group p. -/
def sums (c : Dev nD) : S2x1x512.Idx → EReal := fun i => 0 + ∑ s ∈ Finset.range 4, colOf V c (4 * (i 0).val + s) (i 2).val

/-- What the second result array ends holding: at (p, ·, d) the four column sums of squares of group p. -/
def sqs (c : Dev nD) : S2x1x512.Idx → EReal := fun i => 0 + ∑ s ∈ Finset.range 4, sqOf V c (4 * (i 0).val + s) (i 2).val

/-- An index of result array 1 is in step t's block iff each coordinate is in the block's range on its axis. -/
theorem mem_blk1 (t : Fin cfg0.N) (i : S2x1x512.Idx) :
    i ∈ ((cfg0.win 1).blk t).view.set ↔ ∀ a : Fin 3, win0_1.index t a * S1x1x512.size a ≤ (i a).val ∧ (i a).val < win0_1.index t a * S1x1x512.size a + S1x1x512.size a := by
  show i ∈ ((View.whole main_v2_0).slice (win0_1.rect t)).set ↔ _
  rw [View.set_slice_whole, Rect.mem_set_unit]
  exact Iff.rfl

/-- What a group's last step writes back to result array 1 is that group's block of `sums`. -/
theorem flushed1_eq (c : Dev nD) (t : Fin cfg0.N) (hf : (cfg0.win 1).flush t = true) :
    (dat0 V c).flushed 1 t = ((cfg0.win 1).blk t).view.read (Elt Ideal) (sums V c) := by
  have h3 : t.val % 4 = 3 := (flush0_1 t).mp hf
  obtain ⟨-, -, e0, e1, e2, -⟩ := idx_facts t
  show (cfg0.win 1).cut (grid0.coords t) ((dat0 V c).after 1 t) = _
  rw [after0_1]
  funext y
  show (outsAt0 V c t.val t.isLt).1 y = sums V c (((cfg0.win 1).blk t).view.emb y)
  have hy0 : (y 0).val < 1 := (y 0).isLt
  have hy1 : (y 1).val < 1 := (y 1).isLt
  have hy2 : (y 2).val < 512 := (y 2).isLt
  have hy : y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have ha0 : ((((cfg0.win 1).blk t).view.emb y) 0).val = t.val / 4 := by
    show win0_1.index t 0 * 1 + 1 * (y 0).val = _; rw [e0]; omega
  have ha2 : ((((cfg0.win 1).blk t).view.emb y) 2).val = (y 2).val := by
    show win0_1.index t 2 * 512 + 1 * (y 2).val = _; rw [e2]; omega
  refine (congrArg (outsAt0 V c t.val t.isLt).1 hy).trans ((acc1_apply V c t.val t.isLt ⟨(y 2).val, hy2⟩).trans ?_)
  unfold sums
  rw [h3]
  show 0 + ∑ s ∈ Finset.range 4, colOf V c (4 * (t.val / 4) + s) (y 2).val
    = 0 + ∑ s ∈ Finset.range 4, colOf V c (4 * ((((cfg0.win 1).blk t).view.emb y) 0).val + s) ((((cfg0.win 1).blk t).view.emb y) 2).val
  rw [ha0, ha2]

/-- Every index of result array 1 is in the block some group's last step writes back. -/
theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 8 := N_0
  have hi0 : (i 0).val < 2 := (i 0).isLt
  have hi1 : (i 1).val < 1 := (i 1).isLt
  have hi2 : (i 2).val < 512 := (i 2).isLt
  have ht : 4 * (i 0).val + 3 < cfg0.N := by omega
  obtain ⟨-, -, e0, e1, e2, -⟩ := idx_facts ⟨4 * (i 0).val + 3, ht⟩
  have e0' : win0_1.index ⟨4 * (i 0).val + 3, ht⟩ 0 = (i 0).val := by
    rw [e0]; show (4 * (i 0).val + 3) / 4 = (i 0).val; omega
  refine ⟨⟨4 * (i 0).val + 3, ht⟩, (flush0_1 _).mpr (by show (4 * (i 0).val + 3) % 4 = 3; omega), ?_⟩
  refine (mem_blk1 _ i).mpr fun a => ?_
  match a with
  | ⟨0, _⟩ => show win0_1.index ⟨4 * (i 0).val + 3, ht⟩ 0 * 1 ≤ (i 0).val ∧ (i 0).val < win0_1.index ⟨4 * (i 0).val + 3, ht⟩ 0 * 1 + 1; rw [e0']; omega
  | ⟨1, _⟩ => show win0_1.index ⟨4 * (i 0).val + 3, ht⟩ 1 * 1 ≤ (i 1).val ∧ (i 1).val < win0_1.index ⟨4 * (i 0).val + 3, ht⟩ 1 * 1 + 1; rw [e1]; omega
  | ⟨2, _⟩ => show win0_1.index ⟨4 * (i 0).val + 3, ht⟩ 2 * 512 ≤ (i 2).val ∧ (i 2).val < win0_1.index ⟨4 * (i 0).val + 3, ht⟩ 2 * 512 + 512; rw [e2]; omega

/-- Result array 1 after the pass. -/
theorem final1 (c : Dev nD) : (dat0 V c).arrAt 1 cfg0.N = sums V c :=
  (dat0 V c).arrAt_eq_of_cover 1 (sums V c) (flushed1_eq V c) (cover1 c)

/-- An index of result array 2 is in step t's block iff each coordinate is in the block's range on its axis. -/
theorem mem_blk2 (t : Fin cfg0.N) (i : S2x1x512.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v2_1).slice (win0_2.rect t)).set ↔ _
  rw [View.set_slice_whole, Rect.mem_set_unit]
  exact Iff.rfl

/-- What a group's last step writes back to result array 2 is that group's block of `sqs`. -/
theorem flushed2_eq (c : Dev nD) (t : Fin cfg0.N) (hf : (cfg0.win 2).flush t = true) :
    (dat0 V c).flushed 2 t = ((cfg0.win 2).blk t).view.read (Elt Ideal) (sqs V c) := by
  have h3 : t.val % 4 = 3 := (flush0_2 t).mp hf
  obtain ⟨-, -, -, -, -, e0, e1, e2⟩ := idx_facts t
  show (cfg0.win 2).cut (grid0.coords t) ((dat0 V c).after 2 t) = _
  rw [after0_2]
  funext y
  show (outsAt0 V c t.val t.isLt).2 y = sqs V c (((cfg0.win 2).blk t).view.emb y)
  have hy0 : (y 0).val < 1 := (y 0).isLt
  have hy1 : (y 1).val < 1 := (y 1).isLt
  have hy2 : (y 2).val < 512 := (y 2).isLt
  have hy : y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have ha0 : ((((cfg0.win 2).blk t).view.emb y) 0).val = t.val / 4 := by
    show win0_2.index t 0 * 1 + 1 * (y 0).val = _; rw [e0]; omega
  have ha2 : ((((cfg0.win 2).blk t).view.emb y) 2).val = (y 2).val := by
    show win0_2.index t 2 * 512 + 1 * (y 2).val = _; rw [e2]; omega
  refine (congrArg (outsAt0 V c t.val t.isLt).2 hy).trans ((acc2_apply V c t.val t.isLt ⟨(y 2).val, hy2⟩).trans ?_)
  unfold sqs
  rw [h3]
  show 0 + ∑ s ∈ Finset.range 4, sqOf V c (4 * (t.val / 4) + s) (y 2).val
    = 0 + ∑ s ∈ Finset.range 4, sqOf V c (4 * ((((cfg0.win 2).blk t).view.emb y) 0).val + s) ((((cfg0.win 2).blk t).view.emb y) 2).val
  rw [ha0, ha2]

/-- Every index of result array 2 is in the block some group's last step writes back. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 8 := N_0
  have hi0 : (i 0).val < 2 := (i 0).isLt
  have hi1 : (i 1).val < 1 := (i 1).isLt
  have hi2 : (i 2).val < 512 := (i 2).isLt
  have ht : 4 * (i 0).val + 3 < cfg0.N := by omega
  obtain ⟨-, -, -, -, -, e0, e1, e2⟩ := idx_facts ⟨4 * (i 0).val + 3, ht⟩
  have e0' : win0_2.index ⟨4 * (i 0).val + 3, ht⟩ 0 = (i 0).val := by
    rw [e0]; show (4 * (i 0).val + 3) / 4 = (i 0).val; omega
  refine ⟨⟨4 * (i 0).val + 3, ht⟩, (flush0_2 _).mpr (by show (4 * (i 0).val + 3) % 4 = 3; omega), ?_⟩
  refine (mem_blk2 _ i).mpr fun a => ?_
  match a with
  | ⟨0, _⟩ => show win0_2.index ⟨4 * (i 0).val + 3, ht⟩ 0 * 1 ≤ (i 0).val ∧ (i 0).val < win0_2.index ⟨4 * (i 0).val + 3, ht⟩ 0 * 1 + 1; rw [e0']; omega
  | ⟨1, _⟩ => show win0_2.index ⟨4 * (i 0).val + 3, ht⟩ 1 * 1 ≤ (i 1).val ∧ (i 1).val < win0_2.index ⟨4 * (i 0).val + 3, ht⟩ 1 * 1 + 1; rw [e1]; omega
  | ⟨2, _⟩ => show win0_2.index ⟨4 * (i 0).val + 3, ht⟩ 2 * 512 ≤ (i 2).val ∧ (i 2).val < win0_2.index ⟨4 * (i 0).val + 3, ht⟩ 2 * 512 + 512; rw [e2]; omega

/-- Result array 2 after the pass. -/
theorem final2 (c : Dev nD) : (dat0 V c).arrAt 2 cfg0.N = sqs V c :=
  (dat0 V c).arrAt_eq_of_cover 2 (sqs V c) (flushed2_eq V c) (cover2 c)

theorem ix2_congr {n0 n1 : ℕ} {a a' : Fin n0} {b b' : Fin n1} (ha : a = a') (hb : b = b') : ix2 a b = ix2 a' b' := by
  subst ha hb; rfl

/-- Step 4p + t's row r is the specification's row r of block t of group p. -/
theorem row_eq (p : Fin 2) (t : Fin 4) (r : Fin 784) (h : 784 * (4 * p.val + t.val) + r.val < 6272) :
    (⟨784 * (4 * p.val + t.val) + r.val, h⟩ : Fin 6272) = Cert.Club.row p t r :=
  Fin.ext (by show 784 * (4 * p.val + t.val) + r.val = (p.val * 4 + t.val) * 784 + r.val; omega)

/-- The first result array at (p, 0, d): column d of the samples summed over the four blocks of group p. -/
theorem sums_apply (c : Dev nD) (p : Fin 2) (d : Fin 512) :
    sums V c (ix3 p (0 : Fin 1) d) = ∑ t : Fin 4, ∑ r : Fin 784, smp V c (ix2 (Cert.Club.row p t r) d) := by
  have hN : cfg0.N = 8 := N_0
  unfold sums
  show 0 + ∑ s ∈ Finset.range 4, colOf V c (4 * p.val + s) d.val = _
  rw [zero_add, Finset.sum_range]
  refine Finset.sum_congr rfl fun t _ => ?_
  have hp := p.isLt
  have ht := t.isLt
  unfold colOf
  rw [dif_pos ⟨by omega, d.isLt⟩]
  exact Finset.sum_congr rfl fun r _ => congrArg (smp V c) (ix2_congr (row_eq p t r _) rfl)

/-- The second result array at (p, 0, d): column d of the squared samples summed over the four blocks of group p. -/
theorem sqs_apply (c : Dev nD) (p : Fin 2) (d : Fin 512) :
    sqs V c (ix3 p (0 : Fin 1) d) = ∑ t : Fin 4, ∑ r : Fin 784, smp V c (ix2 (Cert.Club.row p t r) d) * smp V c (ix2 (Cert.Club.row p t r) d) := by
  have hN : cfg0.N = 8 := N_0
  unfold sqs
  show 0 + ∑ s ∈ Finset.range 4, sqOf V c (4 * p.val + s) d.val = _
  rw [zero_add, Finset.sum_range]
  refine Finset.sum_congr rfl fun t _ => ?_
  have hp := p.isLt
  have ht := t.isLt
  unfold sqOf
  rw [dif_pos ⟨by omega, d.isLt⟩]
  exact Finset.sum_congr rfl fun r _ => by rw [ix2_congr (row_eq p t r _) rfl]

end Cert.KernelIdeal.SumPass
end
-- ==== Proof.Bounds.lean ====
/-
  What the buffers hold at the boundaries between the program's five stretches: host operations (a transpose and a
  reshape), the first kernel, host operations (two sums over the leading axis, each divided by the number of rows),
  the second kernel, host operations (one sum over all axes, divided by the number of rows).

  A stretch of host operations rewrites the buffers its operations write, each to its operation's function of the
  operands' contents, and leaves every other buffer; a kernel's region leaves each of its windows' arrays at what its
  write-backs fold to (an input window's array as entered) and every other buffer as entered.
-/
import proofs.«163307_j17454747091666_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Bounds

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-- At the first kernel's entry the samples' buffer holds the transpose to (8,28,28,512) reshaped to (6272,512). -/
theorem V1_v1 (c : Dev nD) :
    V1 m ρ c main_v1 = shapeCast S6272x512 (transpose S8x28x28x512 [0, 2, 3, 1] (m ((c : Thread nD τ).loc main_arg0)) transposes_S8x512x28x28_S8x28x28x512_0_2_3_1) shapeCasts_S8x28x28x512_S6272x512 := by
  show StableHlo.after hostOps0 (W0 m ρ c) (Proc.devRef .tc main_v1) = _
  after_results
  rfl

/-- The flattened samples are an input of the first kernel and no later host operation writes them: at the second
    kernel's entry they are as at the first's. -/
theorem V3_v1 (c : Dev nD) : V3 m ρ c main_v1 = V1 m ρ c main_v1 :=
  calc V3 m ρ c main_v1
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 0 cfg0.N := W2_arr m ρ c 0
    _ = V1 m ρ c main_v1 := ((dat0 (V1 m ρ) c).arrAt_in 0 rfl _).trans (A_eq0 (V1 m ρ) c 0)

/-- The means are written by no stretch before the second kernel. -/
theorem V3_arg1 (c : Dev nD) : V3 m ρ c main_arg1 = m ((c : Thread nD τ).loc main_arg1) :=
  calc V3 m ρ c main_arg1
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The log-variances are written by no stretch before the second kernel. -/
theorem V3_arg2 (c : Dev nD) : V3 m ρ c main_arg2 = m ((c : Thread nD τ).loc main_arg2) :=
  calc V3 m ρ c main_arg2
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- At the second kernel's entry the first averaged vector is the sum over the leading axis of the first kernel's
    first result, divided by the number of rows. -/
theorem V3_v6 (c : Dev nD) :
    V3 m ρ c main_v6 = Host.divf (Host.reduceAdd ((dat0 (V1 m ρ) c).arrAt 1 cfg0.N) (constant (F := F) S_ .f32 0x00000000#32) reducesTo_S2x1x512_S1x512_d0 h_S_) (broadcastInDim S1x512 ![] bcast_S_S1x512 (constant (F := F) S_ .f32 0x45C40000#32)) := by
  show StableHlo.after hostOps1 (W2 m ρ c) (Proc.devRef .tc main_v6) = _
  after_results
  rw [show W2 m ρ c (Proc.devRef .tc main_v2_0) = (dat0 (V1 m ρ) c).arrAt 1 cfg0.N from W2_arr m ρ c 1]

/-- The second averaged vector, likewise from the first kernel's second result. -/
theorem V3_v8 (c : Dev nD) :
    V3 m ρ c main_v8 = Host.divf (Host.reduceAdd ((dat0 (V1 m ρ) c).arrAt 2 cfg0.N) (constant (F := F) S_ .f32 0x00000000#32) reducesTo_S2x1x512_S1x512_d0 h_S_) (broadcastInDim S1x512 ![] bcast_S_S1x512 (constant (F := F) S_ .f32 0x45C40000#32)) := by
  show StableHlo.after hostOps1 (W2 m ρ c) (Proc.devRef .tc main_v8) = _
  after_results
  rw [show W2 m ρ c (Proc.devRef .tc main_v2_1) = (dat0 (V1 m ρ) c).arrAt 2 cfg0.N from W2_arr m ρ c 2]

/-- The program's result is the sum over all axes of the second kernel's result, divided by the number of rows. -/
theorem W5_v11 (c : Dev nD) :
    W5 m ρ c (Proc.devRef .tc main_v11) = Host.divf (Host.reduceAdd ((dat1 (V3 m ρ) c).arrAt 5 cfg1.N) (constant (F := F) S_ .f32 0x00000000#32) reducesTo_S2x1x1_S_d0_1_2 h_S_) (constant (F := F) S_ .f32 0x45C40000#32) := by
  show StableHlo.after hostOps2 (W4 m ρ c) (Proc.devRef .tc main_v11) = _
  after_results
  rw [show W4 m ρ c (Proc.devRef .tc main_v9) = (dat1 (V3 m ρ) c).arrAt 5 cfg1.N from W4_arr m ρ c 5]

end Cert.KernelIdeal.Bounds

end
-- ==== Proof.HostGlue.lean ====
/-
  The host's arithmetic between and after the two passes, read at one index.

  After the first pass each of the two groups holds its partial column sums; the host adds the two groups and divides
  by the number of rows, 6272. After the second pass each group holds its partial total; the host adds the two and
  divides by 6272 again. The sums start from the zero pattern, which denotes 0.
-/
import proofs.«163307_j17454747091666_1_alg».proof.KernelIdeal
import proofs.«163307_j17454747091666_1_alg».proof.Proof.ClubSpec
import proofs.«163307_j17454747091666_1_alg».proof.Proof.LibFinite
import Idealize.ShloMosaic.Lib.ValueIdx
import Idealize.ShloMosaic.PureOps.Ideal.Laws
import Idealize.ShloMosaic.Lib.Pipeline.Value

noncomputable section

namespace Cert.KernelIdeal.HostGlue

open Idealize.ShloMosaic Idealize.ShloMosaic.ValueIdx

variable [Cert.KernelIdeal.Facts]
open Cert.KernelIdeal Cert.KernelIdeal.Facts₀ Cert.KernelIdeal.Facts

/-- Over (0, d) of the [1, 512] result, group p of the [2, 1, 512] operand is the index (p, 0, d). -/
theorem lift_group (h : S2x1x512.Reduces [0] S1x512) (d : Fin 512) (p : Fin 2) :
    h.lift (ix2 (0 : Fin 1) d) p = ix3 p (0 : Fin 1) d := by
  funext a; match a with | ⟨0, _⟩ => rfl | ⟨1, _⟩ => rfl | ⟨2, _⟩ => rfl

/-- The two groups' partial column sums added and divided by the number of rows. -/
theorem mean_apply (S : FVec Ideal S2x1x512 .f32) (d : Fin 512) :
    Host.divf (F := Ideal) (Host.reduceAdd (F := Ideal) S (constant (F := Ideal) S_ .f32 0x00000000#32) reducesTo_S2x1x512_S1x512_d0 h_S_)
        (broadcastInDim S1x512 ![] bcast_S_S1x512 (constant (F := Ideal) S_ .f32 0x45C40000#32)) (ix2 (0 : Fin 1) d)
      = Ideal.div (S (ix3 (0 : Fin 2) (0 : Fin 1) d) + S (ix3 (1 : Fin 2) (0 : Fin 1) d)) Cert.Club.cN := by
  have hR : S2x1x512.Reduces [0] S1x512 := by decide
  show Ideal.div (Ideal.hostReduceAdd reducesTo_S2x1x512_S1x512_d0 S (Ideal.ofBits .f32 0x00000000#32) (ix2 (0 : Fin 1) d))
      Cert.Club.cN = _
  refine congrArg (fun z => Ideal.div z Cert.Club.cN) ?_
  refine (Ideal.hostReduceAdd_single reducesTo_S2x1x512_S1x512_d0 hR S _ (ix2 (0 : Fin 1) d)).trans ?_
  rw [Cert.LibFinite.ofBits_zero, zero_add]
  refine (Fin.sum_univ_two (fun k : Fin 2 => S (hR.lift (ix2 (0 : Fin 1) d) k))).trans ?_
  rw [lift_group, lift_group]

/-- The indices of a [2, 1, 1] array are its two groups. -/
def groupEquiv : Fin 2 ≃ S2x1x1.Idx where
  toFun p := ix3 p (0 : Fin 1) (0 : Fin 1)
  invFun i := i 0
  left_inv _ := rfl
  right_inv i := by
    funext a
    match a with
    | ⟨0, _⟩ => rfl
    | ⟨1, _⟩ => exact Subsingleton.elim (α := Fin 1) _ _
    | ⟨2, _⟩ => exact Subsingleton.elim (α := Fin 1) _ _

/-- The two groups' partial totals added and divided by the number of rows. -/
theorem total_apply (T : FVec Ideal S2x1x1 .f32) :
    Host.divf (F := Ideal) (Host.reduceAdd (F := Ideal) T (constant (F := Ideal) S_ .f32 0x00000000#32) reducesTo_S2x1x1_S_d0_1_2 h_S_)
        (constant (F := Ideal) S_ .f32 0x45C40000#32) ix0
      = Ideal.div (T (ix3 (0 : Fin 2) (0 : Fin 1) (0 : Fin 1)) + T (ix3 (1 : Fin 2) (0 : Fin 1) (0 : Fin 1))) Cert.Club.cN := by
  show Ideal.div (Ideal.hostReduceAdd reducesTo_S2x1x1_S_d0_1_2 T (Ideal.ofBits .f32 0x00000000#32) ix0) Cert.Club.cN = _
  refine congrArg (fun z => Ideal.div z Cert.Club.cN) ?_
  refine (Ideal.hostReduceAdd_total reducesTo_S2x1x1_S_d0_1_2 (fun b => b.elim0) T _ ix0).trans ?_
  rw [Cert.LibFinite.ofBits_zero, zero_add, ← Equiv.sum_comp groupEquiv T]
  exact Fin.sum_univ_two (fun p : Fin 2 => T (groupEquiv p))

end Cert.KernelIdeal.HostGlue

end
-- ==== Proof.Means.lean ====
import proofs.«163307_j17454747091666_1_alg».proof.Proof.Gen.KernelIdeal.Frame
import Idealize.ShloMosaic.Lib.Pipeline.Value
import Idealize.ShloMosaic.Lib.Tactic
import proofs.«163307_j17454747091666_1_alg».proof.Proof.SumValue
import proofs.«163307_j17454747091666_1_alg».proof.Proof.Bounds
import proofs.«163307_j17454747091666_1_alg».proof.Proof.HostGlue
import proofs.«163307_j17454747091666_1_alg».proof.Proof.ClubSpec
import Idealize.ShloMosaic.Lib.ValueIdx

noncomputable section

open Idealize.ShloMosaic Idealize.ShloMosaic.TcCoe Idealize.SL.Sem
open Idealize.ShloMosaic.Pipeline (Dat)

/-!
  Between the two passes: the host adds the two groups' partial column sums and divides by the number of rows, so the
  second pass finds the column means of the samples and of their squares — the two averaged vectors of the
  specification, over the samples as the first pass found them.
-/

namespace Cert.KernelIdeal.Means
open Cert.KernelIdeal Cert.KernelIdeal.Gen Idealize.ShloMosaic.ValueIdx

variable (m : (ℓ : Loc nD τ sig) → Buf (Elt Ideal) ℓ) (ρ : Dev nD → PrngReg)

/-- The second pass finds, in its fourth operand, the column means of the samples. -/
theorem xm_eq (c : Dev nD) (X : Cert.Club.Mat) (hX : ∀ i d, SumPass.smp (V1 m ρ) c (ix2 i d) = X i d) (d : Fin 512) :
    (V3 m ρ c main_v6 : S1x512.Idx → EReal) (ix2 (0 : Fin 1) d) = Cert.Club.xm X d := by
  rw [Bounds.V3_v6 m ρ c]
  refine (HostGlue.mean_apply _ d).trans ?_
  rw [SumPass.final1 (V1 m ρ) c, SumPass.sums_apply, SumPass.sums_apply]
  unfold Cert.Club.xm Cert.Club.colSum
  rw [Fin.sum_univ_two]
  simp only [hX]

/-- The second pass finds, in its fifth operand, the column means of the squared samples. -/
theorem x2m_eq (c : Dev nD) (X : Cert.Club.Mat) (hX : ∀ i d, SumPass.smp (V1 m ρ) c (ix2 i d) = X i d) (d : Fin 512) :
    (V3 m ρ c main_v8 : S1x512.Idx → EReal) (ix2 (0 : Fin 1) d) = Cert.Club.x2m X d := by
  rw [Bounds.V3_v8 m ρ c]
  refine (HostGlue.mean_apply _ d).trans ?_
  rw [SumPass.final2 (V1 m ρ) c, SumPass.sqs_apply, SumPass.sqs_apply]
  unfold Cert.Club.x2m Cert.Club.colSum
  rw [Fin.sum_univ_two]
  simp only [hX]

end Cert.KernelIdeal.Means
end
-- ==== Proof.MainPieces.lean ====
import proofs.«163307_j17454747091666_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  The second pass: what one grid step leaves in the running total.

  A step reads its 784 rows of the samples x, of the means m and of the log-variances l, and the two averaged
  vectors u (column means of x) and v (column means of x*x). It forms, row by row, positive - negative, sums the
  784 values and adds the sum to the accumulator, which the first step of a group has first set to zero.
-/

namespace Cert.KernelIdeal.MainPass
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a group adds the block's total to the accumulator. -/
theorem later (c : Dev nD) (i : grid1.Coords) (a2 : Memref sig .tc .vmem S784x512 .f32) (h2 : a2.IsWhole) (a3 : Memref sig .tc .vmem S784x512 .f32) (h3 : a3.IsWhole) (a4 : Memref sig .tc .vmem S784x512 .f32) (h4 : a4.IsWhole) (a5 : Memref sig .tc .vmem S1x512 .f32) (h5 : a5.IsWhole) (a6 : Memref sig .tc .vmem S1x512 .f32) (h6 : a6.IsWhole) (a7 : Memref sig .tc .vmem S1x1x1 .f32) (h7 : a7.IsWhole)
    (hc : ¬cond1_0 i) (x m l : Vec F S784x512 .f32) (u v : Vec F S1x512 .f32) (s : Vec F S1x1x1 .f32) :
    out1_B_5 c i a2 h2 a3 h3 a4 h4 a5 h5 a6 h6 a7 h7 hc x m l u v s = k1_pay1 (k1_pay4 x m l) (k1_pay5 m l u v) s := by
  unfold out1_B_5
  rw [View.read_writes_eq_canon _ _ _ (cover1_B_5 c i a2 h2 a3 h3 a4 h4 a5 h5 a6 h6 a7 h7 hc x m l u v s)]
  unfold kernelRun1_B
  dsimp only
  sl_unfold_words
  rw [View.canon_unit_zero hz3]
  simp only [View.readAt_eq_ld, h2.read_unread, h3.read_unread, h4.read_unread, h5.read_unread, h6.read_unread,
    h7.read_unread, View.ld_unit_zero (S := S784x512) hz2, View.ld_unit_zero (S := S1x512) hz2,
    View.ld_unit_zero (S := S1x1x1) hz3]

/-- The first step of a group leaves zero plus the block's total. -/
theorem first (c : Dev nD) (i : grid1.Coords) (a2 : Memref sig .tc .vmem S784x512 .f32) (h2 : a2.IsWhole) (a3 : Memref sig .tc .vmem S784x512 .f32) (h3 : a3.IsWhole) (a4 : Memref sig .tc .vmem S784x512 .f32) (h4 : a4.IsWhole) (a5 : Memref sig .tc .vmem S1x512 .f32) (h5 : a5.IsWhole) (a6 : Memref sig .tc .vmem S1x512 .f32) (h6 : a6.IsWhole) (a7 : Memref sig .tc .vmem S1x1x1 .f32) (h7 : a7.IsWhole)
    (hc : cond1_0 i) (x m l : Vec F S784x512 .f32) (u v : Vec F S1x512 .f32) :
    out1_A_5 c i a2 h2 a3 h3 a4 h4 a5 h5 a6 h6 a7 h7 hc x m l u v = k1_pay1 (k1_pay4 x m l) (k1_pay5 m l u v) k1_pay2 := by
  unfold out1_A_5
  rw [View.read_writes_eq_canon _ _ _ (cover1_A_5 c i a2 h2 a3 h3 a4 h4 a5 h5 a6 h6 a7 h7 hc x m l u v)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread,
    View.ld_unit_zero (S := S784x512) hz2, View.ld_unit_zero (S := S1x512) hz2]

end Cert.KernelIdeal.MainPass
end
-- ==== Proof.LibColumn.lean ====
/-
  A column of row values, as a sum along the rows that keeps a unit axis lays it out: a vector of `a` values recast as
  an `[a, 1]` column, and such a column broadcast along its unit axis to an `[a, b]` matrix — each read at an index
  given by its coordinates.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.MainRead.lean ====
/-
  The second pass's stored value, read at its one index over the extended reals and stated against the
  specification: the running value plus the sum, over the block's 784 rows, of each row's positive term minus its
  negative term, the negative term contracted against the two vectors of column averages.
-/
import proofs.«163307_j17454747091666_1_alg».proof.Proof.Gen.KernelIdeal.Skeleton
import proofs.«163307_j17454747091666_1_alg».proof.Proof.ClubSpec
import proofs.«163307_j17454747091666_1_alg».proof.Proof.LibFinite
import proofs.«163307_j17454747091666_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MainRead

open Cert.KernelIdeal Cert.KernelIdeal.Gen Idealize.ShloMosaic Idealize.ShloMosaic.ValueIdx

/-- The index a sum along the columns inserts into row `r` is `(r, k)`. -/
theorem lift_axis1 (h : S784x512.Reduces [1] S784) (r : Fin 784) (k : Fin 512) :
    h.lift (ix1 r) k = ix2 r k := by
  funext a; match a with | ⟨0, _⟩ => rfl | ⟨1, _⟩ => rfl

/-- The index a sum along the rows inserts into the one column is `(k, 0)`. -/
theorem lift_axis0 (h : S784x1.Reduces [0] S1) (k : Fin 784) :
    h.lift (ix1 (0 : Fin 1)) k = ix2 k (0 : Fin 1) := by
  funext a; match a with | ⟨0, _⟩ => rfl | ⟨1, _⟩ => rfl

/-- A matrix summed along its columns and laid out as a column reads, at row `r`, the sum of row `r`. -/
theorem rowSum_apply (w : FVec Ideal S784x512 .f32) (r : Fin 784) (u : Fin 1) :
    shapeCast S784x1 (multiReduction .add [1] S784 w 0x00000000#32 reduces_S784x512_S784 (.inl rfl) rfl)
        shapeCasts_S784_S784x1 (ix2 r u) = ∑ d : Fin 512, w (ix2 r d) := by
  refine (Cert.LibColumn.shapeCast_a_a1_apply _ _ r u).trans ?_
  refine (Ideal.multiReduction_add_single w 0x00000000#32 reduces_S784x512_S784 (.inl rfl) rfl (ix1 r)).trans ?_
  exact Finset.sum_congr rfl fun d _ => congrArg w (lift_axis1 _ r d)

/-- The exponential factor at `(r, d)` is `exp(0 - l) = exp(-L)` of the entry. -/
theorem pay3_apply (L : Cert.Club.Mat) (i : Fin 784 → Fin 6272) (l : Vec Ideal S784x512 .f32)
    (hl : ∀ r d, l (ix2 r d) = L (i r) d) (r : Fin 784) (d : Fin 512) :
    k1_pay3 (F := Ideal) l (ix2 r d) = Cert.Club.ev L (i r) d := by
  unfold k1_pay3
  show Ideal.exp (Ideal.ofBits .f32 0x00000000#32 - l (ix2 r d)) = _
  rw [hl, Cert.LibFinite.ofBits_zero, zero_sub]
  rfl

/-- The first column of row terms at row `r`: the row's positive term. -/
theorem pay4_apply (X M L : Cert.Club.Mat) (i : Fin 784 → Fin 6272) (x m l : Vec Ideal S784x512 .f32)
    (hx : ∀ r d, x (ix2 r d) = X (i r) d) (hm : ∀ r d, m (ix2 r d) = M (i r) d) (hl : ∀ r d, l (ix2 r d) = L (i r) d)
    (r : Fin 784) :
    k1_pay4 (F := Ideal) x m l (ix2 r (0 : Fin 1)) = Cert.Club.pos X M L (i r) := by
  unfold k1_pay4
  refine (mulf_apply _ _ _).trans ?_
  refine (congrArg (Cert.Club.cH * ·) (rowSum_apply _ r 0)).trans ?_
  unfold Cert.Club.pos
  refine congrArg (Cert.Club.cH * ·) (Finset.sum_congr rfl fun d _ => ?_)
  show ((shapeCast S784x512 x shapeCasts_S784x512_S784x512 (ix2 r d) - m (ix2 r d))
      * (shapeCast S784x512 x shapeCasts_S784x512_S784x512 (ix2 r d) - m (ix2 r d))) * k1_pay3 (F := Ideal) l (ix2 r d) = _
  rw [shapeCast_self, hx, hm, pay3_apply L i l hl]

/-- The second column of row terms at row `r`: the three contractions of the row's negative term, combined. -/
theorem pay5_apply (X M L : Cert.Club.Mat) (i : Fin 784 → Fin 6272) (m l : Vec Ideal S784x512 .f32)
    (u v : Vec Ideal S1x512 .f32)
    (hm : ∀ r d, m (ix2 r d) = M (i r) d) (hl : ∀ r d, l (ix2 r d) = L (i r) d)
    (hu : ∀ d, u (ix2 (0 : Fin 1) d) = Cert.Club.xm X d) (hv : ∀ d, v (ix2 (0 : Fin 1) d) = Cert.Club.x2m X d)
    (r : Fin 784) :
    k1_pay5 (F := Ideal) m l u v (ix2 r (0 : Fin 1))
      = ((∑ d : Fin 512, Cert.Club.ev L (i r) d * Cert.Club.x2m X d)
          - Cert.Club.c2 * ∑ d : Fin 512, (M (i r) d * Cert.Club.ev L (i r) d) * Cert.Club.xm X d)
        + Cert.Club.tm2 M L (i r) := by
  unfold k1_pay5
  refine (addf_apply _ _ _).trans ?_
  refine congrArg₂ (· + ·) ((subf_apply _ _ _).trans (congrArg₂ (· - ·) ?_ ((mulf_apply _ _ _).trans (congrArg (Cert.Club.c2 * ·) ?_)))) ?_
  · refine (rowSum_apply _ r 0).trans (Finset.sum_congr rfl fun d _ => ?_)
    refine (mulf_apply _ _ _).trans ?_
    rw [pay3_apply L i l hl, broadcastTo_1b_ab_apply, shapeCast_self, hv]
  · refine (rowSum_apply _ r 0).trans (Finset.sum_congr rfl fun d _ => ?_)
    refine (mulf_apply _ _ _).trans ?_
    rw [mulf_apply, pay3_apply L i l hl, broadcastTo_1b_ab_apply, shapeCast_self, hu, hm]
  · unfold Cert.Club.tm2
    refine (rowSum_apply _ r 0).trans (Finset.sum_congr rfl fun d _ => ?_)
    refine (mulf_apply _ _ _).trans ?_
    rw [mulf_apply, pay3_apply L i l hl, hm]

/-- The stored value over any two columns of row terms: the running value plus the sum over the rows of the first
    column minus minus-one-half times the second. -/
theorem pay1_read (a b : FVec Ideal S784x1 .f32) (s : Vec Ideal S1x1x1 .f32) :
    k1_pay1 (F := Ideal) a b s (ix3 (0 : Fin 1) (0 : Fin 1) (0 : Fin 1))
      = s (ix3 (0 : Fin 1) (0 : Fin 1) (0 : Fin 1))
        + ∑ r : Fin 784, (a (ix2 r (0 : Fin 1)) - Cert.Club.cH * b (ix2 r (0 : Fin 1))) := by
  unfold k1_pay1
  refine (addf_apply _ _ _).trans ?_
  refine congrArg₂ (· + ·) (congrFun (shapeCast_self s _) _) ?_
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single _ 0x00000000#32 reduces_S784x1_S1 (.inl rfl) rfl (ix1 (0 : Fin 1))).trans ?_
  refine Finset.sum_congr rfl fun (r : Fin 784) _ => ?_
  exact (congrArg (subf a (mulf (broadcast S784x1 (Scalar.ofBits (F := Ideal) .f32 0xBF000000#32)) b))
    (lift_axis0 reduces_S784x1_S1 r)).trans rfl

/-- The second pass's stored value at its one index: the running value plus the block's sum of positive minus
    negative row terms. -/
theorem pay1_apply (X M L : Cert.Club.Mat) (i : Fin 784 → Fin 6272)
    (x m l : Vec Ideal S784x512 .f32) (u v : Vec Ideal S1x512 .f32) (s : Vec Ideal S1x1x1 .f32)
    (hx : ∀ r d, x (ix2 r d) = X (i r) d) (hm : ∀ r d, m (ix2 r d) = M (i r) d) (hl : ∀ r d, l (ix2 r d) = L (i r) d)
    (hu : ∀ d, u (ix2 (0 : Fin 1) d) = Cert.Club.xm X d) (hv : ∀ d, v (ix2 (0 : Fin 1) d) = Cert.Club.x2m X d) :
    k1_pay1 (F := Ideal) (k1_pay4 x m l) (k1_pay5 m l u v) s (ix3 (0 : Fin 1) (0 : Fin 1) (0 : Fin 1))
      = s (ix3 (0 : Fin 1) (0 : Fin 1) (0 : Fin 1))
        + ∑ r : Fin 784, (Cert.Club.pos X M L (i r) - Cert.Club.negK X M L (i r)) := by
  refine (pay1_read _ _ s).trans (congrArg (s (ix3 (0 : Fin 1) (0 : Fin 1) (0 : Fin 1)) + ·) ?_)
  refine Finset.sum_congr rfl fun r _ => ?_
  rw [pay4_apply X M L i x m l hx hm hl r, pay5_apply X M L i m l u v hm hl hu hv r]
  rfl

end Cert.KernelIdeal.MainRead

end
-- ==== Proof.MainValue.lean ====
import proofs.«163307_j17454747091666_1_alg».proof.Proof.Gen.KernelIdeal.Frame
import Idealize.ShloMosaic.Lib.Pipeline.Value
import Idealize.ShloMosaic.Lib.Tactic
import proofs.«163307_j17454747091666_1_alg».proof.Proof.MainPieces
import proofs.«163307_j17454747091666_1_alg».proof.Proof.MainRead
import proofs.«163307_j17454747091666_1_alg».proof.Proof.SumRead
import proofs.«163307_j17454747091666_1_alg».proof.Proof.ClubSpec
import Idealize.ShloMosaic.Lib.ValueIdx

noncomputable section

open Idealize.ShloMosaic Idealize.ShloMosaic.TcCoe Idealize.SL.Sem
open Idealize.ShloMosaic.Pipeline (Dat)

/-!
  The second pass, read: after it, entry (p, 0, 0) of its result array is the sum, over the 4 blocks of 784 rows of
  group p, of each row's positive term minus its negative term.

  The grid has 8 steps; step n = 4p + s reads rows 784 n … 784 n + 783 of the samples, the means and the
  log-variances, and at every step the same two vectors of column averages. The accumulator has one entry; it is set to
  zero at the first step of a group, receives one block's total per step, and is written back after the group's last
  step.
-/

namespace Cert.KernelIdeal.MainValue
open Cert.KernelIdeal Cert.KernelIdeal.Gen Idealize.ShloMosaic.ValueIdx

variable (V : (c : Dev nD) → (b : Ref sig .tc) → Buf (Elt Ideal) ((c : Thread nD τ).loc b))

/-- The printed index maps over the grid: a row-block input's block number is the step; the two averaged vectors have
    one block; the accumulator's block is the group. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val / 4 ∧ win1_5.index t (1 : Fin 3) = 0 ∧ win1_5.index t (2 : Fin 3) = 0) :=
  (by decide +kernel : ∀ t : Fin grid1.N, _)

/-- The samples, the means and the log-variances as the second pass finds them: 6272 rows and 512 columns. -/
def xs (c : Dev nD) : S6272x512.Idx → EReal := V c main_v1
def ms (c : Dev nD) : S6272x512.Idx → EReal := V c main_arg1
def ls (c : Dev nD) : S6272x512.Idx → EReal := V c main_arg2
/-- The column averages of the samples and of their squares as the second pass finds them: one row of 512. -/
def us (c : Dev nD) : S1x512.Idx → EReal := V c main_v6
def vs (c : Dev nD) : S1x512.Idx → EReal := V c main_v8

/-- Step n's blocks of the three matrices (784 rows) and of the two vectors (the whole row). -/
def xblk (c : Dev nD) (n : ℕ) (hn : n < cfg1.N) : S784x512.Idx → EReal := iblk1 V c 0 ⟨n, hn⟩
def mblk (c : Dev nD) (n : ℕ) (hn : n < cfg1.N) : S784x512.Idx → EReal := iblk1 V c 1 ⟨n, hn⟩
def lblk (c : Dev nD) (n : ℕ) (hn : n < cfg1.N) : S784x512.Idx → EReal := iblk1 V c 2 ⟨n, hn⟩
def ublk (c : Dev nD) (n : ℕ) (hn : n < cfg1.N) : S1x512.Idx → EReal := iblk1 V c 3 ⟨n, hn⟩
def vblk (c : Dev nD) (n : ℕ) (hn : n < cfg1.N) : S1x512.Idx → EReal := iblk1 V c 4 ⟨n, hn⟩

/-- Row r of step n's block is row 784 n + r of the matrices. -/
theorem blk_row_lt (n : ℕ) (hn : n < cfg1.N) (r : Fin 784) : 784 * n + r.val < 6272 := by
  have hN : cfg1.N = 8 := N_1
  have := r.isLt
  omega

/-- The matrix row that row r of step n's block is. -/
def rowIdx (n : ℕ) (hn : n < cfg1.N) (r : Fin 784) : Fin 6272 := ⟨784 * n + r.val, blk_row_lt n hn r⟩

/-- Step n's block of the samples, entry (r, d): the samples at (784 n + r, d). -/
theorem xblk_apply (c : Dev nD) (n : ℕ) (hn : n < cfg1.N) (r : Fin 784) (d : Fin 512) :
    xblk V c n hn (ix2 r d) = xs V c (ix2 (rowIdx n hn r) d) := by
  obtain ⟨⟨e0, e1⟩, -⟩ := idx_facts ⟨n, hn⟩
  have e0' : win1_0.index ⟨n, hn⟩ 0 = n := e0
  unfold xblk xs iblk1
  rw [View.read_apply]
  show V c main_v1 _ = V c main_v1 _
  congr 1
  funext a
  apply Fin.ext
  match a with
  | ⟨0, _⟩ => show win1_0.index ⟨n, hn⟩ 0 * 784 + 1 * r.val = 784 * n + r.val; rw [e0']; omega
  | ⟨1, _⟩ => show win1_0.index ⟨n, hn⟩ 1 * 512 + 1 * d.val = d.val; rw [e1]; omega

/-- Step n's block of the means, entry (r, d): the means at (784 n + r, d). -/
theorem mblk_apply (c : Dev nD) (n : ℕ) (hn : n < cfg1.N) (r : Fin 784) (d : Fin 512) :
    mblk V c n hn (ix2 r d) = ms V c (ix2 (rowIdx n hn r) d) := by
  obtain ⟨-, ⟨e0, e1⟩, -⟩ := idx_facts ⟨n, hn⟩
  have e0' : win1_1.index ⟨n, hn⟩ 0 = n := e0
  unfold mblk ms iblk1
  rw [View.read_apply]
  show V c main_arg1 _ = V c main_arg1 _
  congr 1
  funext a
  apply Fin.ext
  match a with
  | ⟨0, _⟩ => show win1_1.index ⟨n, hn⟩ 0 * 784 + 1 * r.val = 784 * n + r.val; rw [e0']; omega
  | ⟨1, _⟩ => show win1_1.index ⟨n, hn⟩ 1 * 512 + 1 * d.val = d.val; rw [e1]; omega

/-- Step n's block of the log-variances, entry (r, d): the log-variances at (784 n + r, d). -/
theorem lblk_apply (c : Dev nD) (n : ℕ) (hn : n < cfg1.N) (r : Fin 784) (d : Fin 512) :
    lblk V c n hn (ix2 r d) = ls V c (ix2 (rowIdx n hn r) d) := by
  obtain ⟨-, -, ⟨e0, e1⟩, -⟩ := idx_facts ⟨n, hn⟩
  have e0' : win1_2.index ⟨n, hn⟩ 0 = n := e0
  unfold lblk ls iblk1
  rw [View.read_apply]
  show V c main_arg2 _ = V c main_arg2 _
  congr 1
  funext a
  apply Fin.ext
  match a with
  | ⟨0, _⟩ => show win1_2.index ⟨n, hn⟩ 0 * 784 + 1 * r.val = 784 * n + r.val; rw [e0']; omega
  | ⟨1, _⟩ => show win1_2.index ⟨n, hn⟩ 1 * 512 + 1 * d.val = d.val; rw [e1]; omega

/-- Every step's block of the samples' column averages is the whole vector. -/
theorem ublk_apply (c : Dev nD) (n : ℕ) (hn : n < cfg1.N) (d : Fin 512) :
    ublk V c n hn (ix2 (0 : Fin 1) d) = us V c (ix2 (0 : Fin 1) d) := by
  obtain ⟨-, -, -, ⟨e0, e1⟩, -⟩ := idx_facts ⟨n, hn⟩
  unfold ublk us iblk1
  rw [View.read_apply]
  show V c main_v6 _ = V c main_v6 _
  congr 1
  funext a
  apply Fin.ext
  match a with
  | ⟨0, _⟩ => show win1_3.index ⟨n, hn⟩ 0 * 1 + 1 * 0 = 0; rw [e0]
  | ⟨1, _⟩ => show win1_3.index ⟨n, hn⟩ 1 * 512 + 1 * d.val = d.val; rw [e1]; omega

/-- Every step's block of the squares' column averages is the whole vector. -/
theorem vblk_apply (c : Dev nD) (n : ℕ) (hn : n < cfg1.N) (d : Fin 512) :
    vblk V c n hn (ix2 (0 : Fin 1) d) = vs V c (ix2 (0 : Fin 1) d) := by
  obtain ⟨-, -, -, -, ⟨e0, e1⟩, -⟩ := idx_facts ⟨n, hn⟩
  unfold vblk vs iblk1
  rw [View.read_apply]
  show V c main_v8 _ = V c main_v8 _
  congr 1
  funext a
  apply Fin.ext
  match a with
  | ⟨0, _⟩ => show win1_4.index ⟨n, hn⟩ 0 * 1 + 1 * 0 = 0; rw [e0]
  | ⟨1, _⟩ => show win1_4.index ⟨n, hn⟩ 1 * 512 + 1 * d.val = d.val; rw [e1]; omega

section Spec
variable (X M L : Cert.Club.Mat)

/-- The total of step n's block: the sum over its 784 rows of positive minus negative (zero past the grid). -/
def stepTotal (n : ℕ) : EReal :=
  if h : n < cfg1.N then ∑ r : Fin 784, (Cert.Club.pos X M L (rowIdx n h r) - Cert.Club.negK X M L (rowIdx n h r)) else 0

/-- The accumulator's one entry after step n. -/
def acc (c : Dev nD) (n : ℕ) (h : n < cfg1.N) : Unit → EReal :=
  fun _ => outsAt1 V c n h (ix3 (0 : Fin 1) (0 : Fin 1) (0 : Fin 1))

variable {X M L}
variable {c : Dev nD}
  (hX : ∀ i d, xs V c (ix2 i d) = X i d) (hM : ∀ i d, ms V c (ix2 i d) = M i d) (hL : ∀ i d, ls V c (ix2 i d) = L i d)
  (hu : ∀ d, us V c (ix2 (0 : Fin 1) d) = Cert.Club.xm X d) (hv : ∀ d, vs V c (ix2 (0 : Fin 1) d) = Cert.Club.x2m X d)

include hX hM hL hu hv

/-- At the first step of a group the accumulator is zero plus the step's total. -/
theorem acc_first (n : ℕ) (h : n < cfg1.N) (hm : n % 4 = 0) :
    acc V c n h = fun _ => 0 + stepTotal X M L n := by
  funext _
  show outsAt1 V c n h (ix3 (0 : Fin 1) (0 : Fin 1) (0 : Fin 1)) = _
  rw [outsAt1_A V c ⟨n, h⟩ hm]
  rw [MainPass.first]
  refine (MainRead.pay1_apply X M L (rowIdx n h) (xblk V c n h) (mblk V c n h) (lblk V c n h) (ublk V c n h) (vblk V c n h) _
    (fun r d => (xblk_apply V c n h r d).trans (hX _ d)) (fun r d => (mblk_apply V c n h r d).trans (hM _ d))
    (fun r d => (lblk_apply V c n h r d).trans (hL _ d))
    (fun d => (ublk_apply V c n h d).trans (hu d)) (fun d => (vblk_apply V c n h d).trans (hv d))).trans ?_
  rw [SumRead.main_pay2_apply, stepTotal, dif_pos h]

/-- At a later step of a group the accumulator is what the step before left plus the step's total. -/
theorem acc_later (n : ℕ) (h : n + 1 < cfg1.N) (hm : ¬(n + 1) % 4 = 0) :
    acc V c (n + 1) h = fun _ => acc V c n (Nat.lt_of_succ_lt h) () + stepTotal X M L (n + 1) := by
  funext _
  show outsAt1 V c (n + 1) h (ix3 (0 : Fin 1) (0 : Fin 1) (0 : Fin 1))
    = outsAt1 V c n (Nat.lt_of_succ_lt h) (ix3 (0 : Fin 1) (0 : Fin 1) (0 : Fin 1)) + _
  rw [outsAt1_B V c ⟨n + 1, h⟩ hm]
  rw [MainPass.later]
  refine (MainRead.pay1_apply X M L (rowIdx (n + 1) h) (xblk V c (n + 1) h) (mblk V c (n + 1) h) (lblk V c (n + 1) h)
    (ublk V c (n + 1) h) (vblk V c (n + 1) h) _
    (fun r d => (xblk_apply V c (n + 1) h r d).trans (hX _ d)) (fun r d => (mblk_apply V c (n + 1) h r d).trans (hM _ d))
    (fun r d => (lblk_apply V c (n + 1) h r d).trans (hL _ d))
    (fun d => (ublk_apply V c (n + 1) h d).trans (hu d)) (fun d => (vblk_apply V c (n + 1) h d).trans (hv d))).trans ?_
  rw [stepTotal, dif_pos h]
  rfl

/-- The accumulator after step t: zero plus the totals of the steps of t's group up to t. -/
theorem acc_apply (t : ℕ) (ht : t < cfg1.N) :
    acc V c t ht () = 0 + ∑ s ∈ Finset.range (t % 4 + 1), stepTotal X M L (4 * (t / 4) + s) := by
  have h' : 4 * (t / 4) + t % 4 < cfg1.N := by rw [Nat.div_add_mod]; exact ht
  have key := Pipeline.eq_accAt_of_mod (N := cfg1.N) (α := Unit → EReal) (acc V c) 4
    (fun n h _ => 0 + stepTotal X M L n) (fun n h a _ => a () + stepTotal X M L n)
    (fun n h hm => acc_first V hX hM hL hu hv n h hm) (fun n h hm => acc_later V hX hM hL hu hv n h hm)
    (by decide) t ht h'
  rw [congrFun key ()]
  exact Pipeline.accAt_add_apply (N := cfg1.N) (ι := Unit) (β := EReal) _ _ (fun _ => 0) (fun n _ => stepTotal X M L n)
    (4 * (t / 4)) 3 (fun h i => rfl) (fun n h a i _ _ => rfl) (t % 4) (by omega) h' ()

omit hX hM hL hu hv in
/-- An index of the result array is in step t's block iff each coordinate is in the block's range on its axis. -/
theorem mem_blk5 (t : Fin cfg1.N) (i : S2x1x1.Idx) :
    i ∈ ((cfg1.win 5).blk t).view.set ↔ ∀ a : Fin 3, win1_5.index t a * S1x1x1.size a ≤ (i a).val ∧ (i a).val < win1_5.index t a * S1x1x1.size a + S1x1x1.size a := by
  show i ∈ ((View.whole main_v9).slice (win1_5.rect t)).set ↔ _
  rw [View.set_slice_whole, Rect.mem_set_unit]
  exact Iff.rfl

variable (X M L) in
/-- What the result array ends holding: at (p, ·, ·) the four block totals of group p. -/
def totals : S2x1x1.Idx → EReal := fun i => 0 + ∑ s ∈ Finset.range 4, stepTotal X M L (4 * (i 0).val + s)

/-- What a group's last step writes back to the result array is that group's block of `totals`. -/
theorem flushed5_eq (t : Fin cfg1.N) (hf : (cfg1.win 5).flush t = true) :
    (dat1 V c).flushed 5 t = ((cfg1.win 5).blk t).view.read (Elt Ideal) (totals X M L) := by
  have h3 : t.val % 4 = 3 := (flush1_5 t).mp hf
  obtain ⟨-, -, -, -, -, e0, e1, e2⟩ := idx_facts t
  show (cfg1.win 5).cut (grid1.coords t) ((dat1 V c).after 5 t) = _
  rw [after1_5]
  funext y
  show outsAt1 V c t.val t.isLt y = totals X M L (((cfg1.win 5).blk t).view.emb y)
  have hy0 : (y 0).val < 1 := (y 0).isLt
  have hy1 : (y 1).val < 1 := (y 1).isLt
  have hy2 : (y 2).val < 1 := (y 2).isLt
  have hy : y = ix3 (0 : Fin 1) (0 : Fin 1) (0 : Fin 1) := by
    funext a; apply Fin.ext
    match a with
    | ⟨0, _⟩ => show (y 0).val = 0; omega
    | ⟨1, _⟩ => show (y 1).val = 0; omega
    | ⟨2, _⟩ => show (y 2).val = 0; omega
  have ha0 : ((((cfg1.win 5).blk t).view.emb y) 0).val = t.val / 4 := by
    show win1_5.index t 0 * 1 + 1 * (y 0).val = _; rw [e0]; omega
  refine (congrArg (outsAt1 V c t.val t.isLt) hy).trans ((acc_apply V hX hM hL hu hv t.val t.isLt).trans ?_)
  unfold totals
  rw [h3]
  show 0 + ∑ s ∈ Finset.range 4, stepTotal X M L (4 * (t.val / 4) + s)
    = 0 + ∑ s ∈ Finset.range 4, stepTotal X M L (4 * ((((cfg1.win 5).blk t).view.emb y) 0).val + s)
  rw [ha0]

omit hX hM hL hu hv in
/-- Every index of the result array is in the block some group's last step writes back. -/
theorem cover5 (c : Dev nD) (i : ((cfg1.win 5).arr.view.loc (c.tc : Thread nD τ)).2.ty.Idx) :
    ∃ t : Fin cfg1.N, (cfg1.win 5).flush t = true ∧ i ∈ ((cfg1.win 5).blk t).view.set := by
  have hN : cfg1.N = 8 := N_1
  have hi0 : (i 0).val < 2 := (i 0).isLt
  have hi1 : (i 1).val < 1 := (i 1).isLt
  have hi2 : (i 2).val < 1 := (i 2).isLt
  have ht : 4 * (i 0).val + 3 < cfg1.N := by omega
  obtain ⟨-, -, -, -, -, e0, e1, e2⟩ := idx_facts ⟨4 * (i 0).val + 3, ht⟩
  have e0' : win1_5.index ⟨4 * (i 0).val + 3, ht⟩ 0 = (i 0).val := by
    rw [e0]; show (4 * (i 0).val + 3) / 4 = (i 0).val; omega
  refine ⟨⟨4 * (i 0).val + 3, ht⟩, (flush1_5 _).mpr (by show (4 * (i 0).val + 3) % 4 = 3; omega), ?_⟩
  refine (mem_blk5 _ i).mpr fun a => ?_
  match a with
  | ⟨0, _⟩ => show win1_5.index ⟨4 * (i 0).val + 3, ht⟩ 0 * 1 ≤ (i 0).val ∧ (i 0).val < win1_5.index ⟨4 * (i 0).val + 3, ht⟩ 0 * 1 + 1; rw [e0']; omega
  | ⟨1, _⟩ => show win1_5.index ⟨4 * (i 0).val + 3, ht⟩ 1 * 1 ≤ (i 1).val ∧ (i 1).val < win1_5.index ⟨4 * (i 0).val + 3, ht⟩ 1 * 1 + 1; rw [e1]; omega
  | ⟨2, _⟩ => show win1_5.index ⟨4 * (i 0).val + 3, ht⟩ 2 * 1 ≤ (i 2).val ∧ (i 2).val < win1_5.index ⟨4 * (i 0).val + 3, ht⟩ 2 * 1 + 1; rw [e2]; omega

/-- The result array after the pass. -/
theorem final5 : (dat1 V c).arrAt 5 cfg1.N = totals X M L :=
  (dat1 V c).arrAt_eq_of_cover 5 (totals X M L) (flushed5_eq V hX hM hL hu hv) (cover5 c)

omit hX hM hL hu hv in
/-- Step 4p + t's row r is the specification's row r of block t of group p. -/
theorem row_eq (p : Fin 2) (t : Fin 4) (r : Fin 784) (h : 4 * p.val + t.val < cfg1.N) :
    rowIdx (4 * p.val + t.val) h r = Cert.Club.row p t r :=
  Fin.ext (by show 784 * (4 * p.val + t.val) + r.val = (p.val * 4 + t.val) * 784 + r.val; omega)

omit hX hM hL hu hv in
variable (X M L) in
/-- The final contents at (p, 0, 0): positive minus negative summed over the four blocks of group p. -/
theorem totals_apply (p : Fin 2) :
    totals X M L (ix3 p (0 : Fin 1) (0 : Fin 1))
      = ∑ t : Fin 4, ∑ r : Fin 784, (Cert.Club.pos X M L (Cert.Club.row p t r) - Cert.Club.negK X M L (Cert.Club.row p t r)) := by
  have hN : cfg1.N = 8 := N_1
  unfold totals
  show 0 + ∑ s ∈ Finset.range 4, stepTotal X M L (4 * p.val + s) = _
  rw [zero_add, Finset.sum_range]
  refine Finset.sum_congr rfl fun t _ => ?_
  have hp := p.isLt
  have ht := t.isLt
  have hlt : 4 * p.val + t.val < cfg1.N := by omega
  unfold stepTotal
  rw [dif_pos hlt]
  exact Finset.sum_congr rfl fun r _ => by rw [row_eq p t r hlt]

end Spec

/-- The second pass's result at (p, 0, 0): positive minus negative summed over the four blocks of group p. -/
theorem total_apply (c : Dev nD) (X M L : Cert.Club.Mat)
    (hX : ∀ i d, xs V c (ix2 i d) = X i d) (hM : ∀ i d, ms V c (ix2 i d) = M i d) (hL : ∀ i d, ls V c (ix2 i d) = L i d)
    (hu : ∀ d, us V c (ix2 (0 : Fin 1) d) = Cert.Club.xm X d) (hv : ∀ d, vs V c (ix2 (0 : Fin 1) d) = Cert.Club.x2m X d) (p : Fin 2) :
    (dat1 V c).arrAt 5 cfg1.N (ix3 p (0 : Fin 1) (0 : Fin 1))
      = ∑ t : Fin 4, ∑ r : Fin 784, (Cert.Club.pos X M L (Cert.Club.row p t r) - Cert.Club.negK X M L (Cert.Club.row p t r)) :=
  (congrFun (final5 V hX hM hL hu hv) _).trans (totals_apply X M L p)

end Cert.KernelIdeal.MainValue
end
-- ==== Proof.KernelValue.lean ====
import proofs.«163307_j17454747091666_1_alg».proof.Proof.Gen.KernelIdeal.Frame
import Idealize.ShloMosaic.Lib.Pipeline.Value
import Idealize.ShloMosaic.Lib.Tactic
import proofs.«163307_j17454747091666_1_alg».proof.Proof.Means
import proofs.«163307_j17454747091666_1_alg».proof.Proof.MainValue
import proofs.«163307_j17454747091666_1_alg».proof.Proof.Bounds
import proofs.«163307_j17454747091666_1_alg».proof.Proof.HostGlue
import proofs.«163307_j17454747091666_1_alg».proof.Proof.ClubSpec
import Idealize.ShloMosaic.Lib.ValueIdx

noncomputable section

open Idealize.ShloMosaic Idealize.ShloMosaic.TcCoe Idealize.SL.Sem
open Idealize.ShloMosaic.Pipeline (Dat)

/-!
  The idealized kernel program's result: the host adds the two groups' partial totals of the second pass and divides
  by the number of rows. With the first pass's column means in place this is the specification's averaged-vector
  form over the flattened samples, the means and the log-variances as launched.
-/

namespace Cert.KernelIdeal.Result
open Cert.KernelIdeal Cert.KernelIdeal.Gen Idealize.ShloMosaic.ValueIdx

variable (m : (ℓ : Loc nD τ sig) → Buf (Elt Ideal) ℓ) (ρ : Dev nD → PrngReg)

/-- The result buffer after the last stretch of host operations. -/
theorem result_eq (c : Dev nD) (X M L : Cert.Club.Mat)
    (hX : ∀ i d, (V1 m ρ c main_v1 : S6272x512.Idx → EReal) (ix2 i d) = X i d)
    (hM : ∀ i d, (m ((c : Thread nD τ).loc main_arg1) : S6272x512.Idx → EReal) (ix2 i d) = M i d)
    (hL : ∀ i d, (m ((c : Thread nD τ).loc main_arg2) : S6272x512.Idx → EReal) (ix2 i d) = L i d) :
    (W5 m ρ c (Proc.devRef .tc main_v11) : S_.Idx → EReal) = fun _ => Cert.Club.kerE X M L := by
  funext i
  rw [eq_ix0 i, Bounds.W5_v11 m ρ c]
  refine (HostGlue.total_apply _).trans ?_
  have hX' : ∀ i d, MainValue.xs (V3 m ρ) c (ix2 i d) = X i d := fun i d => by
    show (V3 m ρ c main_v1 : S6272x512.Idx → EReal) (ix2 i d) = X i d
    rw [Bounds.V3_v1 m ρ c]; exact hX i d
  have hM' : ∀ i d, MainValue.ms (V3 m ρ) c (ix2 i d) = M i d := fun i d => by
    show (V3 m ρ c main_arg1 : S6272x512.Idx → EReal) (ix2 i d) = M i d
    rw [Bounds.V3_arg1 m ρ c]; exact hM i d
  have hL' : ∀ i d, MainValue.ls (V3 m ρ) c (ix2 i d) = L i d := fun i d => by
    show (V3 m ρ c main_arg2 : S6272x512.Idx → EReal) (ix2 i d) = L i d
    rw [Bounds.V3_arg2 m ρ c]; exact hL i d
  have hu : ∀ d, MainValue.us (V3 m ρ) c (ix2 (0 : Fin 1) d) = Cert.Club.xm X d := fun d => Means.xm_eq m ρ c X hX d
  have hv : ∀ d, MainValue.vs (V3 m ρ) c (ix2 (0 : Fin 1) d) = Cert.Club.x2m X d := fun d => Means.x2m_eq m ρ c X hX d
  rw [MainValue.total_apply (V3 m ρ) c X M L hX' hM' hL' hu hv 0, MainValue.total_apply (V3 m ρ) c X M L hX' hM' hL' hu hv 1]
  unfold Cert.Club.kerE
  rw [Fin.sum_univ_two]

end Cert.KernelIdeal.Result
end
-- ==== Proof.ClubLaw.lean ====
/-
  The two forms of the quantity agree when every entry is a real number.

  With real entries, e = exp(-L) is real and every sum and product below is a real number, so the whole
  comparison happens among the reals. There, for each row i,

    (1/N) * sum_j [ sum_d e(i,d) x(j,d)^2 - 2 sum_d (mu e)(i,d) x(j,d) + T(i) ]
      = sum_d e(i,d) (sum_j x(j,d)^2)/N - 2 sum_d (mu e)(i,d) (sum_j x(j,d))/N + T(i):

  exchange the two sums, pull the factor that does not depend on j out of the inner sum, and use N * T / N = T
  (N = 6272 is not zero). The rows summed group by group and block by block are all the rows, each once.
-/
import proofs.«163307_j17454747091666_1_alg».proof.Proof.ClubSpec
import proofs.«163307_j17454747091666_1_alg».proof.Proof.LibFinite
import proofs.«163307_j17454747091666_1_alg».proof.Proof.LibBlockSum
import Mathlib.Tactic.Ring
import Mathlib.Tactic.NormNum

noncomputable section

namespace Cert.Club

open Idealize.ShloMosaic

/-- The pattern of 2.0 (exponent field 128, zero fraction) denotes 2^23 * 2^(128 - 127 - 23) = 2. -/
theorem c2_eq : c2 = ((2 : ℝ) : EReal) := by
  simp [Ideal.ofBits, Ideal.ieee, -EReal.coe_mul]; norm_num

/-- The pattern of 6272.0 (exponent field 139, fraction 0x440000) denotes
    (2^23 + 0x440000) * 2^(139 - 127 - 23) = 12845056 / 2048 = 6272. -/
theorem cN_eq : cN = ((6272 : ℝ) : EReal) := by
  simp [Ideal.ofBits, Ideal.ieee, -EReal.coe_mul]; norm_num

/-- The rows taken group by group and block by block are all the rows, each once. -/
theorem sum_row {A : Type*} [AddCommMonoid A] (f : Fin 6272 → A) :
    ∑ p : Fin 2, ∑ t : Fin 4, ∑ r : Fin 784, f (row p t r) = ∑ i, f i :=
  (Cert.Lib.BlockSum.sum_rows 2 4 784 (by norm_num) f).symm

/-- A column summed group by group and block by block is the column summed over all rows. -/
theorem colSum_eq (Y : Mat) (d : Fin 512) : colSum Y d = ∑ i, Y i d :=
  sum_row (fun i => Y i d)

/-- With a real log-variance, e = exp(-L) is the real exponential. -/
theorem ev_coe (l : Fin 6272 → Fin 512 → ℝ) (i : Fin 6272) (d : Fin 512) :
    ev (fun i d => ((l i d : ℝ) : EReal)) i d = ((Real.exp (-(l i d)) : ℝ) : EReal) := by
  simp only [ev, ← EReal.coe_neg, Ideal.exp_coe]

/-- The identity among the reals, for one row: e and me are the row's weights, T its constant term. -/
theorem real_law (e me : Fin 512 → ℝ) (x : Fin 6272 → Fin 512 → ℝ) (T : ℝ) :
    ((∑ d, e d * ((∑ j, x j d * x j d) * (1 / 6272 : ℝ))) - 2 * ∑ d, me d * ((∑ j, x j d) * (1 / 6272 : ℝ))) + T
      = (∑ j : Fin 6272, (((∑ d, e d * (x j d * x j d)) - 2 * ∑ d, me d * x j d) + T)) * (1 / 6272 : ℝ) := by
  have hA : ∑ j : Fin 6272, ∑ d, e d * (x j d * x j d) = ∑ d, e d * ∑ j, x j d * x j d := by
    rw [Finset.sum_comm]
    exact Finset.sum_congr rfl fun d _ => (Finset.mul_sum _ _ _).symm
  have hB : ∑ j : Fin 6272, ∑ d, me d * x j d = ∑ d, me d * ∑ j, x j d := by
    rw [Finset.sum_comm]
    exact Finset.sum_congr rfl fun d _ => (Finset.mul_sum _ _ _).symm
  have hL1 : ∑ d, e d * ((∑ j, x j d * x j d) * (1 / 6272 : ℝ))
      = (∑ d, e d * ∑ j, x j d * x j d) * (1 / 6272 : ℝ) := by
    rw [Finset.sum_mul]
    exact Finset.sum_congr rfl fun d _ => (mul_assoc _ _ _).symm
  have hL2 : ∑ d, me d * ((∑ j, x j d) * (1 / 6272 : ℝ)) = (∑ d, me d * ∑ j, x j d) * (1 / 6272 : ℝ) := by
    rw [Finset.sum_mul]
    exact Finset.sum_congr rfl fun d _ => (mul_assoc _ _ _).symm
  rw [hL1, hL2, Finset.sum_add_distrib, Finset.sum_sub_distrib, ← Finset.mul_sum, hA, hB, Finset.sum_const,
    Finset.card_univ, Fintype.card_fin, nsmul_eq_mul]
  push_cast
  ring

/-- For real entries the two forms of row i's negative term agree. -/
theorem negK_eq_negR_coe (x m l : Fin 6272 → Fin 512 → ℝ) (i : Fin 6272) :
    negK (fun i d => ((x i d : ℝ) : EReal)) (fun i d => ((m i d : ℝ) : EReal)) (fun i d => ((l i d : ℝ) : EReal)) i
      = negR (fun i d => ((x i d : ℝ) : EReal)) (fun i d => ((m i d : ℝ) : EReal))
          (fun i d => ((l i d : ℝ) : EReal)) i := by
  unfold negK negR
  congr 1
  simp only [tm2, tx2, tcr, xm, x2m, colSum_eq, ev_coe, cN_eq, c2_eq,
    Ideal.div_coe (by norm_num : (6272 : ℝ) ≠ 0), ← EReal.coe_mul, ← EReal.coe_sub, ← EReal.coe_add,
    ← Cert.Lib.BlockSum.coe_sum]
  exact congrArg _ (real_law _ _ _ _)

/-- The averaged-vector form equals the pairwise form when every entry is a real number. -/
theorem kerE_eq_refE (X M L : Mat) (hX : ∀ i d, Cert.LibFinite.IsFin (X i d))
    (hM : ∀ i d, Cert.LibFinite.IsFin (M i d)) (hL : ∀ i d, Cert.LibFinite.IsFin (L i d)) :
    kerE X M L = refE X M L := by
  choose x hx using hX
  choose m hm using hM
  choose l hl using hL
  obtain rfl : X = fun i d => ((x i d : ℝ) : EReal) := funext fun i => funext fun d => hx i d
  obtain rfl : M = fun i d => ((m i d : ℝ) : EReal) := funext fun i => funext fun d => hm i d
  obtain rfl : L = fun i d => ((l i d : ℝ) : EReal) := funext fun i => funext fun d => hl i d
  unfold kerE refE
  rw [sum_row (fun i => pos _ _ _ i - negK _ _ _ i)]
  congr 1
  refine Finset.sum_congr rfl fun i _ => ?_
  rw [negK_eq_negR_coe]

end Cert.Club

end
-- ==== Proof.Finite.lean ====
/-
  The precondition, read back: each of the three inputs is compared elementwise, in absolute value, against
  the pattern of plus infinity, and all the comparisons are conjoined. The conjunction being true says every
  element satisfies |x| < +∞, i.e. every element is a real number.
-/
import proofs.«163307_j17454747091666_1_alg».proof.Pre_finite_inputs
import proofs.«163307_j17454747091666_1_alg».proof.Proof.LibFinite
import Idealize.ShloMosaic.Lib.ReduceAll
import Idealize.ShloMosaic.PureOps.Ideal

noncomputable section

namespace Cert.Finite

open Idealize.ShloMosaic

/-- The rank-zero shape has exactly one index. -/
instance : Subsingleton Cert.Pre_finite_inputs.S_.Idx := ⟨fun a b => funext fun d => d.elim0⟩

/-- The pattern `0x7F800000` (all-ones exponent, zero fraction, sign clear) denotes `+∞`. -/
theorem ofBits_inf : Ideal.ofBits .f32 0x7F800000#32 = (⊤ : EReal) := by
  simp [Ideal.ofBits, Ideal.ieee]

/-- An extended real whose absolute value `max x (-x)` is strictly below `+∞` is a real number:
    `+∞` is its own absolute value and `-∞` has absolute value `+∞`. -/
theorem isFin_of_abs_lt_top (x : EReal) (h : max x (-x) < ⊤) : Cert.LibFinite.IsFin x := by
  induction x using EReal.rec with
  | bot => simp at h
  | coe r => exact ⟨r, rfl⟩
  | top => simp at h

/-- One elementwise comparison `|x| < +∞` that came out true says `x` is a real number. -/
theorem isFin_of_cmp (x : EReal)
    (h : Ideal.cmp .olt (max x (-x)) (Ideal.ofBits .f32 0x7F800000#32) = 1#1) : Cert.LibFinite.IsFin x := by
  rw [ofBits_inf] at h
  apply isFin_of_abs_lt_top
  by_contra hn
  rw [Ideal.cmp] at h
  rw [decide_eq_false hn] at h
  exact absurd h (by decide)

theorem of_pre [Cert.Pre_finite_inputs.Facts] (a0 : FVec Ideal Cert.Pre_finite_inputs.S8x512x28x28 .f32)
    (a1 a2 : FVec Ideal Cert.Pre_finite_inputs.S6272x512 .f32)
    (h : Cert.Pre_finite_inputs.fn (F := Ideal) a0 a1 a2 = fun _ => 1#1) :
    (∀ i, Cert.LibFinite.IsFin (a0 i)) ∧ (∀ i, Cert.LibFinite.IsFin (a1 i)) ∧ (∀ i, Cert.LibFinite.IsFin (a2 i)) := by
  have h0 := congrFun h (fun d => d.elim0)
  dsimp only [Cert.Pre_finite_inputs.fn] at h0
  obtain ⟨h01, hC⟩ := IntOp.andi_eq_one.1 h0
  obtain ⟨hA, hB⟩ := IntOp.andi_eq_one.1 h01
  refine ⟨fun i => ?_, fun i => ?_, fun i => ?_⟩
  · exact isFin_of_cmp (a0 i) (Host.reduce_andi_all _ _ _ _ _ hA i)
  · exact isFin_of_cmp (a1 i) (Host.reduce_andi_all _ _ _ _ _ hB i)
  · exact isFin_of_cmp (a2 i) (Host.reduce_andi_all _ _ _ _ _ hC i)

end Cert.Finite

end
-- ==== Proof.lean ====
/-
  The certificate: a two-pass kernel agrees, over the extended reals and on finite
  inputs, with the reference that forms the whole 6272 × 6272 table of pairwise terms.

  With x the samples flattened to 6272 rows of 512 columns, μ the predicted means, λ the predicted log-variances and
  e = exp(−λ), row i contributes  positive(i) − negative(i),  positive(i) = −½ Σ_d (x−μ)² e  at row i, and
  negative(i) = −½ · (1/N) Σ_j D(i, j),  D(i, j) = Σ_d e(i,d) x(j,d)² − 2 Σ_d (μ e)(i,d) x(j,d) + Σ_d μ(i,d)² e(i,d);  the result is
  the mean over i. The reference computes every D(i, j). The kernel's first pass sums the columns of x and of x² over all
  rows (two groups of four blocks of 784 rows, a running sum per group); the host divides by N; the second pass
  contracts each row against the two averaged vectors and adds up positive − negative, again group by group; the host
  adds the two partial totals and divides by N. Since D(i, j) is linear in x(j, ·) and x(j, ·)², averaging over j first
  gives the same number — on real numbers: the law uses distributivity and N · T / N = T, which fail at infinities, so the
  precondition (every input entry is a real number) is used, and e = exp(−λ) is then real as well.

  The three run claims are the programs' runs; nothing was rewritten between the kernel and its idealization.
-/
import proofs.«163307_j17454747091666_1_alg».proof.Defs
import proofs.«163307_j17454747091666_1_alg».proof.Proof.Gen.Kernel
import proofs.«163307_j17454747091666_1_alg».proof.Proof.Gen.Kernel.Skeleton
import proofs.«163307_j17454747091666_1_alg».proof.Proof.Gen.Kernel.Launch
import proofs.«163307_j17454747091666_1_alg».proof.Proof.Gen.Kernel.Points
import proofs.«163307_j17454747091666_1_alg».proof.Proof.Gen.Kernel.Frame
import proofs.«163307_j17454747091666_1_alg».proof.Proof.Gen.KernelIdeal
import proofs.«163307_j17454747091666_1_alg».proof.Proof.Gen.KernelIdeal.Skeleton
import proofs.«163307_j17454747091666_1_alg».proof.Proof.Gen.KernelIdeal.Launch
import proofs.«163307_j17454747091666_1_alg».proof.Proof.Gen.KernelIdeal.Points
import proofs.«163307_j17454747091666_1_alg».proof.Proof.Gen.KernelIdeal.Frame
import proofs.«163307_j17454747091666_1_alg».proof.Proof.Gen.ReferenceIdeal
import proofs.«163307_j17454747091666_1_alg».proof.Proof.Gen.ReferenceIdeal.Run
import proofs.«163307_j17454747091666_1_alg».proof.Proof.Gen.ReferenceIdeal.Read
import proofs.«163307_j17454747091666_1_alg».proof.Proof.Gen.Pre_finite_inputs
import proofs.«163307_j17454747091666_1_alg».proof.Proof.RefRead
import proofs.«163307_j17454747091666_1_alg».proof.Proof.KernelRun
import proofs.«163307_j17454747091666_1_alg».proof.Proof.KernelValue
import proofs.«163307_j17454747091666_1_alg».proof.Proof.ClubLaw
import proofs.«163307_j17454747091666_1_alg».proof.Proof.Finite
import Idealize.ShloMosaic.Adequacy
import Idealize.ShloMosaic.Init
import Idealize.ShloMosaic.Lib.ValueIdx

noncomputable section

namespace Cert.Proof

open Idealize.ShloMosaic Idealize.SL.Sem Idealize.ShloMosaic.TcCoe Idealize.ShloMosaic.ValueIdx

/-- Every entry of the flattened samples is an entry of the samples: a transpose and a reshape only move entries. -/
theorem flat_entry (a0 : FVec Ideal Cert.ReferenceIdeal.S8x512x28x28 .f32) (j : Cert.ReferenceIdeal.S6272x512.Idx) :
    ∃ k, Cert.ReferenceIdeal.RefValue.flat a0 j = a0 k := by
  unfold Cert.ReferenceIdeal.RefValue.flat shapeCast transpose
  exact ⟨_, rfl⟩

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals. -/
theorem preserves : Cert.preserves_Kernel_KernelIdeal := trivial

/-- From memories that agree on the three inputs, both programs end with the same extended real: the kernel's result is the
    averaged-vector form of the specification, the reference's the pairwise form, and on real inputs the two forms are equal. -/
theorem algebraic : Cert.algebraic_KernelIdeal_ReferenceIdeal := by
  intro m ρ m' ρ' hpre hagree
  refine ⟨fun c => fun _ => Cert.Club.refE
      (Cert.ReferenceIdeal.RefValue.mat (Cert.ReferenceIdeal.RefValue.flat (m ((c.tc : Thread Cert.KernelIdeal.nD Cert.KernelIdeal.τ).loc Cert.KernelIdeal.main_arg0))))
      (Cert.ReferenceIdeal.RefValue.mat (m ((c.tc : Thread Cert.KernelIdeal.nD Cert.KernelIdeal.τ).loc Cert.KernelIdeal.main_arg1)))
      (Cert.ReferenceIdeal.RefValue.mat (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩)
      (Cert.KernelIdeal.Whole.run_final (F := Ideal) m ρ)
    obtain ⟨f0, f1, f2⟩ := Cert.Finite.of_pre _ _ _ (hpre c)
    refine (Cert.KernelIdeal.Result.result_eq m ρ c
      (Cert.ReferenceIdeal.RefValue.mat (Cert.ReferenceIdeal.RefValue.flat (m ((c.tc : Thread Cert.KernelIdeal.nD Cert.KernelIdeal.τ).loc Cert.KernelIdeal.main_arg0))))
      (Cert.ReferenceIdeal.RefValue.mat (m ((c.tc : Thread Cert.KernelIdeal.nD Cert.KernelIdeal.τ).loc Cert.KernelIdeal.main_arg1)))
      (Cert.ReferenceIdeal.RefValue.mat (m ((c.tc : Thread Cert.KernelIdeal.nD Cert.KernelIdeal.τ).loc Cert.KernelIdeal.main_arg2)))
      (fun i d => ?_) (fun i d => rfl) (fun i d => rfl)).trans ?_
    · rw [Cert.KernelIdeal.Bounds.V1_v1 m ρ c]
      rfl
    · funext _
      refine Cert.Club.kerE_eq_refE _ _ _ (fun i d => ?_) (fun i d => f1 _) (fun i d => f2 _)
      obtain ⟨k, hk⟩ := flat_entry (m ((c.tc : Thread Cert.KernelIdeal.nD Cert.KernelIdeal.τ).loc Cert.KernelIdeal.main_arg0)) (ix2 i d)
      show Cert.LibFinite.IsFin (Cert.ReferenceIdeal.RefValue.flat _ (ix2 i d))
      rw [hk]
      exact f0 k
  · refine (θ_run Cert.ReferenceIdeal.defs _ _).mono (fun _ h c => ⟨(h c).1.trans ?_, (h c).2⟩)
      (Cert.ReferenceIdeal.RefValue.run_refE m' ρ')
    rw [(hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
